-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x64 : Shape := ⟨2, ![64, 64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16x64x256x256 .f32) (main_arg1 : FVec F S64x64 .f32) (main_arg2 : FVec F S64x64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16x64x256x256 : Shape := ⟨4, ![16, 64, 256, 256]⟩
abbrev S64x64 : Shape := ⟨2, ![64, 64]⟩
abbrev S16x64x64 : Shape := ⟨3, ![16, 64, 64]⟩
abbrev S1x64x256x256 : Shape := ⟨4, ![1, 64, 256, 256]⟩
abbrev S1x64x64 : Shape := ⟨3, ![1, 64, 64]⟩
abbrev S64x256x256 : Shape := ⟨3, ![64, 256, 256]⟩
abbrev S16384x8x32 : Shape := ⟨3, ![16384, 8, 32]⟩
abbrev S16384x8 : Shape := ⟨2, ![16384, 8]⟩
abbrev S512x32x8 : Shape := ⟨3, ![512, 32, 8]⟩
abbrev S512x8 : Shape := ⟨2, ![512, 8]⟩
abbrev S64 : Shape := ⟨1, ![64]⟩
abbrev S64x1 : Shape := ⟨2, ![64, 1]⟩
abbrev S1x16x256x256 : Shape := ⟨4, ![1, 16, 256, 256]⟩
abbrev S16x256x256 : Shape := ⟨3, ![16, 256, 256]⟩
abbrev S16x8x32x8x32 : Shape := ⟨5, ![16, 8, 32, 8, 32]⟩
abbrev S8x8x16x32x32 : Shape := ⟨5, ![8, 8, 16, 32, 32]⟩
abbrev S64x16384 : Shape := ⟨2, ![64, 16384]⟩

abbrev nBuf : Space → Nat
  | .hbm => 5
  | .vmem => 12
  | .smem => 0
  | _ => 0

abbrev bufTy : (tb : Table) → Fin (tcTables nBuf tb) → BufTy
  | .hbm, ⟨0, _⟩ => ⟨S16x64x256x256, .f32⟩
  | .hbm, ⟨1, _⟩ => ⟨S64x64, .f32⟩
  | .hbm, ⟨2, _⟩ => ⟨S64x64, .f32⟩
  | .hbm, ⟨3, _⟩ => ⟨S16x64x64, .f32⟩
  | .hbm, ⟨4, _⟩ => ⟨S16x64x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S64x64, .f32⟩
  | .local _ .vmem, ⟨3, _⟩ => ⟨S64x64, .f32⟩
  | .local _ .vmem, ⟨4, _⟩ => ⟨S1x64x64, .f32⟩
  | .local _ .vmem, ⟨5, _⟩ => ⟨S1x64x64, .f32⟩
  | .local _ .vmem, ⟨6, _⟩ => ⟨S1x16x256x256, .f32⟩
  | .local _ .vmem, ⟨7, _⟩ => ⟨S1x16x256x256, .f32⟩
  | .local _ .vmem, ⟨8, _⟩ => ⟨S1x64x64, .f32⟩
  | .local _ .vmem, ⟨9, _⟩ => ⟨S1x64x64, .f32⟩
  | .local _ .vmem, ⟨10, _⟩ => ⟨S1x16x256x256, .f32⟩
  | .local _ .vmem, ⟨11, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  shapeCasts_S64x256x256_S16384x8x32 : S64x256x256.ShapeCasts S16384x8x32
  reduces_S16384x8x32_S16384x8 : S16384x8x32.Reduces [2] S16384x8
  shapeCasts_S16384x8_S512x32x8 : S16384x8.ShapeCasts S512x32x8
  reduces_S512x32x8_S512x8 : S512x32x8.Reduces [1] S512x8
  shapeCasts_S512x8_S64x64 : S512x8.ShapeCasts S64x64
  transposes_S64x64_p1_0_S64x64 : S64x64.Transposes [1, 0] S64x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S64x64_S64 : S64x64.Reduces [1] S64
  shapeCasts_S64_S64x1 : S64.ShapeCasts S64x1
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S16x8x32x8x32 : S16x256x256.ShapeCasts S16x8x32x8x32
  transposes_S16x8x32x8x32_p1_3_0_2_4_S8x8x16x32x32 : S16x8x32x8x32.Transposes [1, 3, 0, 2, 4] S8x8x16x32x32
  shapeCasts_S8x8x16x32x32_S64x16384 : S8x8x16x32x32.ShapeCasts S64x16384
  shapeCasts_S64x16384_S8x8x16x32x32 : S64x16384.ShapeCasts S8x8x16x32x32
  transposes_S8x8x16x32x32_p2_0_3_1_4_S16x8x32x8x32 : S8x8x16x32x32.Transposes [2, 0, 3, 1, 4] S16x8x32x8x32
  shapeCasts_S16x8x32x8x32_S16x256x256 : S16x8x32x8x32.ShapeCasts S16x256x256
  shapeCasts_S16x256x256_S1x16x256x256 : S16x256x256.ShapeCasts S1x16x256x256
  dot_S64x64_S64x64_S64x64_1_0_0_1_n_n_wf : DotDims.WF S64x64 S64x64 S64x64 [1] [0] [0] [1] [] []
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S16x64x256x256.size a
  hwx0_0 : ∀ i : grid0.Coords, EltTy.bits .f32 = 32 ∨ (Rect.block (s := S16x64x256x256) S1x64x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S16x64x64.size a
  hwx0_3 : ∀ i : grid0.Coords, EltTy.bits .f32 = 32 ∨ (Rect.block (s := S16x64x64) S1x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S16x64x256x256.size a
  hwx1_0 : ∀ i : grid1.Coords, EltTy.bits .f32 = 32 ∨ (Rect.block (s := S16x64x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S16x64x64.size a
  hwx1_1 : ∀ i : grid1.Coords, EltTy.bits .f32 = 32 ∨ (Rect.block (s := S16x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S16x64x256x256.size a
  hwx1_2 : ∀ i : grid1.Coords, EltTy.bits .f32 = 32 ∨ (Rect.block (s := S16x64x256x256) S1x16x256x256.size (cc1_transform_2 i) (hinb1_2 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S64x64 : Shape := ⟨2, ![64, 64]⟩
abbrev S16x64x8x32x8x32 : Shape := ⟨6, ![16, 64, 8, 32, 8, 32]⟩
abbrev S_ : Shape := ⟨0, ![]⟩
abbrev S16x64x8x8 : Shape := ⟨4, ![16, 64, 8, 8]⟩
abbrev S16x64x64 : Shape := ⟨3, ![16, 64, 64]⟩
abbrev S16x256x256x64 : Shape := ⟨4, ![16, 256, 256, 64]⟩
abbrev S16x8x32x8x32x64 : Shape := ⟨6, ![16, 8, 32, 8, 32, 64]⟩
abbrev S16x8x8x32x32x64 : Shape := ⟨6, ![16, 8, 8, 32, 32, 64]⟩
abbrev S16x64x65536 : Shape := ⟨3, ![16, 64, 65536]⟩
abbrev S16x64 : Shape := ⟨2, ![16, 64]⟩
abbrev S16x64x1 : Shape := ⟨3, ![16, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x64, .f32⟩
  | .hbm, ⟨2, _⟩ => ⟨S64x64, .f32⟩
  | .hbm, ⟨3, _⟩ => ⟨S16x64x8x32x8x32, .f32⟩
  | .hbm, ⟨4, _⟩ => ⟨S_, .f32⟩
  | .hbm, ⟨5, _⟩ => ⟨S16x64x8x8, .f32⟩
  | .hbm, ⟨6, _⟩ => ⟨S_, .f32⟩
  | .hbm, ⟨7, _⟩ => ⟨S16x64x8x8, .f32⟩
  | .hbm, ⟨8, _⟩ => ⟨S16x64x8x8, .f32⟩
  | .hbm, ⟨9, _⟩ => ⟨S16x64x64, .f32⟩
  | .hbm, ⟨10, _⟩ => ⟨S16x64x64, .f32⟩
  | .hbm, ⟨11, _⟩ => ⟨S16x64x64, .f32⟩
  | .hbm, ⟨12, _⟩ => ⟨S16x64x64, .f32⟩
  | .hbm, ⟨13, _⟩ => ⟨S16x256x256x64, .f32⟩
  | .hbm, ⟨14, _⟩ => ⟨S16x8x32x8x32x64, .f32⟩
  | .hbm, ⟨15, _⟩ => ⟨S16x8x8x32x32x64, .f32⟩
  | .hbm, ⟨16, _⟩ => ⟨S16x64x65536, .f32⟩
  | .hbm, ⟨17, _⟩ => ⟨S16x64x64, .f32⟩
  | .hbm, ⟨18, _⟩ => ⟨S_, .f32⟩
  | .hbm, ⟨19, _⟩ => ⟨S16x64x64, .f32⟩
  | .hbm, ⟨20, _⟩ => ⟨S16x64x64, .f32⟩
  | .hbm, ⟨21, _⟩ => ⟨S_, .f32⟩
  | .hbm, ⟨22, _⟩ => ⟨S16x64, .f32⟩
  | .hbm, ⟨23, _⟩ => ⟨S_, .f32⟩
  | .hbm, ⟨24, _⟩ => ⟨S16x64, .f32⟩
  | .hbm, ⟨25, _⟩ => ⟨S16x64, .f32⟩
  | .hbm, ⟨26, _⟩ => ⟨S16x64x1, .f32⟩
  | .hbm, ⟨27, _⟩ => ⟨S16x64x64, .f32⟩
  | .hbm, ⟨28, _⟩ => ⟨S16x64x64, .f32⟩
  | .hbm, ⟨29, _⟩ => ⟨S16x64x64, .f32⟩
  | .hbm, ⟨30, _⟩ => ⟨S_, .f32⟩
  | .hbm, ⟨31, _⟩ => ⟨S16x64, .f32⟩
  | .hbm, ⟨32, _⟩ => ⟨S16x64x1, .f32⟩
  | .hbm, ⟨33, _⟩ => ⟨S16x64x64, .f32⟩
  | .hbm, ⟨34, _⟩ => ⟨S16x64x64, .f32⟩
  | .hbm, ⟨35, _⟩ => ⟨S16x64x65536, .f32⟩
  | .hbm, ⟨36, _⟩ => ⟨S16x8x8x32x32x64, .f32⟩
  | .hbm, ⟨37, _⟩ => ⟨S16x8x32x8x32x64, .f32⟩
  | .hbm, ⟨38, _⟩ => ⟨S16x256x256x64, .f32⟩
  | .hbm, ⟨39, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S16x64x256x256_S16x64x8x32x8x32 : S16x64x256x256.ShapeCasts S16x64x8x32x8x32
  reducesTo_S16x64x8x32x8x32_S16x64x8x8_d3_5 : S16x64x8x32x8x32.ReducesTo [3, 5] S16x64x8x8
  h_S_ : 0 < S_.numel
  bcast_S_S16x64x8x8 : S_.BroadcastsInDim S16x64x8x8 (![] : Fin 0 → Fin S16x64x8x8.rank)
  shapeCasts_S16x64x8x8_S16x64x64 : S16x64x8x8.ShapeCasts S16x64x64
  transposes_S16x64x64_S16x64x64_0_2_1 : S16x64x64.Transposes [0, 2, 1] S16x64x64
  transposes_S16x64x256x256_S16x256x256x64_0_2_3_1 : S16x64x256x256.Transposes [0, 2, 3, 1] S16x256x256x64
  shapeCasts_S16x256x256x64_S16x8x32x8x32x64 : S16x256x256x64.ShapeCasts S16x8x32x8x32x64
  transposes_S16x8x32x8x32x64_S16x8x8x32x32x64_0_1_3_2_4_5 : S16x8x32x8x32x64.Transposes [0, 1, 3, 2, 4, 5] S16x8x8x32x32x64
  shapeCasts_S16x8x8x32x32x64_S16x64x65536 : S16x8x8x32x32x64.ShapeCasts S16x64x65536
  bcast_S_S16x64x64 : S_.BroadcastsInDim S16x64x64 (![] : Fin 0 → Fin S16x64x64.rank)
  reducesTo_S16x64x64_S16x64_d2 : S16x64x64.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  shapeCasts_S16x64x65536_S16x8x8x32x32x64 : S16x64x65536.ShapeCasts S16x8x8x32x32x64
  transposes_S16x8x8x32x32x64_S16x8x32x8x32x64_0_1_3_2_4_5 : S16x8x8x32x32x64.Transposes [0, 1, 3, 2, 4, 5] S16x8x32x8x32x64
  shapeCasts_S16x8x32x8x32x64_S16x256x256x64 : S16x8x32x8x32x64.ShapeCasts S16x256x256x64
  transposes_S16x256x256x64_S16x64x256x256_0_3_1_2 : S16x256x256x64.Transposes [0, 3, 1, 2] S16x64x256x256
  dot_S16x64x64_S64x64_S16x64x64_2_1_01_0_n_n_wf : DotDims.WF S16x64x64 S64x64 S16x64x64 [2] [1] [0, 1] [0] [] []
  dot_S16x64x64_S16x64x64_S16x64x64_2_2_1_1_0_0_wf : DotDims.WF S16x64x64 S16x64x64 S16x64x64 [2] [2] [1] [1] [0] [0]
  dot_S16x64x64_S16x64x65536_S16x64x65536_2_1_1_2_0_0_wf : DotDims.WF S16x64x64 S16x64x65536 S16x64x65536 [2] [1] [1] [2] [0] [0]

variable [Facts₀]

def dot_S16x64x64_S64x64_S16x64x64_2_1_01_0_n_n : DotDims S16x64x64 S64x64 S16x64x64 where
  lhsContracting := [2]
  rhsContracting := [1]
  lhsNonContracting := [0, 1]
  rhsNonContracting := [0]
  lhsBatch := []
  rhsBatch := []
  wf := dot_S16x64x64_S64x64_S16x64x64_2_1_01_0_n_n_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf
def dot_S16x64x64_S16x64x65536_S16x64x65536_2_1_1_2_0_0 : DotDims S16x64x64 S16x64x65536 S16x64x65536 where
  lhsContracting := [2]
  rhsContracting := [1]
  lhsNonContracting := [1]
  rhsNonContracting := [2]
  lhsBatch := [0]
  rhsBatch := [0]
  wf := dot_S16x64x64_S16x64x65536_S16x64x65536_2_1_1_2_0_0_wf

class Facts : Prop extends Facts₀ where

variable [Facts]
-- ==== Proof.KRun.lean ====
/-
  The kernel's run with its result named. The program is two regions in a row: the first writes the attention matrix
  (a [16, 64, 64] array), the second reads it beside the input and writes the result. Every weakly fair execution
  terminates; the result array then holds what the second region's write-backs leave, folded over its grid from the
  contents the second region was entered with, and the three arguments are as launched.
-/
import proofs.«157101_j39797166964879_2_alg».proof.Proof.Gen.KernelIdeal.Frame

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the
    contents the two regions' fold leaves there, and each argument is as launched. -/
theorem run_fold : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result buffer after the second region: its write-backs folded over the whole grid. -/
theorem W2_result (c : Dev nD) :
    W2 m ρ c (Proc.devRef .tc main_v1) = (dat1 (V1 m ρ) c).arrAt 2 cfg1.N := W2_arr m ρ c 2

/-- The attention matrix's buffer as the second region finds it: the first region's write-backs folded over its grid. -/
theorem V1_dist (c : Dev nD) : V1 m ρ c main_v0 = (dat0 (V0 m ρ) c).arrAt 3 cfg0.N := W1_arr m ρ c 3

/-- The input as the second region finds it: as launched. -/
theorem V1_input (c : Dev nD) : V1 m ρ c main_arg0 = m ((c : Thread nD τ).loc main_arg0) :=
  (W1_arr m ρ c 0).trans (((dat0 (V0 m ρ) c).arrAt_in 0 rfl _).trans (A_eq0 (V0 m ρ) c 0))

end Cert.KernelValue

end
-- ==== Proof.Spec.lean ====
/-
  The function both programs compute, entry by entry, over the extended reals.

  The input x has shape [16, 64, 256, 256] (batch, channel, row, column); each 256 × 256 image is cut into an
  8 × 8 grid of 32 × 32 windows, window n = 8·(row / 32) + (column / 32).  The weights Wq, Wk are 64 × 64.

  Per batch entry b (its 64 images x = x[b]):
    pooled c n   = (Σ_{r,s<32} x[c, 32·(n/8)+r, 32·(n%8)+s]) · 2⁻¹⁰          the mean of window n of image c
    proj W n k   = Σ_c pooled c n · W[k, c]                                   queries / keys
    score n m    = (Σ_k proj Wq n k · proj Wk m k) · 2⁻³
    rowMax n     = max(-∞, max_m score n m)
    expo n m     = exp (score n m - rowMax n)
    dist n m     = expo n m / Σ_m' expo n m'                                  the softmax over m
    out[b,c,h,w] = Σ_m dist (window of (h,w)) m · x[c, 32·(m/8)+h%32, 32·(m%8)+w%32]

  The three float literals stay as their words: 0x3A800000 (2⁻¹⁰), 0x3E000000 (2⁻³), 0xFF800000 (-∞).
-/
import Idealize.ShloMosaic.Lib.ValueIdx
import Idealize.ShloMosaic.PureOps.Ideal

noncomputable section

namespace Cert.Spec

open Idealize.ShloMosaic Idealize.ShloMosaic.ValueIdx

/-- Indices of the input and result arrays, and of a weight matrix. -/
abbrev XIdx := (⟨4, ![16, 64, 256, 256]⟩ : Shape).Idx
abbrev WIdx := (⟨2, ![64, 64]⟩ : Shape).Idx
abbrev DIdx := (⟨3, ![16, 64, 64]⟩ : Shape).Idx

/-- Row r of window n, as a row of the image. -/
def winRow (n : Fin 64) (r : Fin 32) : Fin 256 := ⟨n.val / 8 * 32 + r.val, by omega⟩
/-- Column s of window n, as a column of the image. -/
def winCol (n : Fin 64) (s : Fin 32) : Fin 256 := ⟨n.val % 8 * 32 + s.val, by omega⟩
/-- The window an image position lies in. -/
def winOf (h w : Fin 256) : Fin 64 := ⟨h.val / 32 * 8 + w.val / 32, by omega⟩
/-- A row's (or a column's) position inside its window. -/
def inWin (h : Fin 256) : Fin 32 := ⟨h.val % 32, by omega⟩

theorem winRow_val (n : Fin 64) (r : Fin 32) : (winRow n r).val = n.val / 8 * 32 + r.val := rfl
theorem winCol_val (n : Fin 64) (s : Fin 32) : (winCol n s).val = n.val % 8 * 32 + s.val := rfl
theorem winOf_val (h w : Fin 256) : (winOf h w).val = h.val / 32 * 8 + w.val / 32 := rfl
theorem inWin_val (h : Fin 256) : (inWin h).val = h.val % 32 := rfl

/-- One batch entry's stack of 64 images, a weight matrix's entries. -/
abbrev Img := Fin 64 → Fin 256 → Fin 256 → EReal

variable (x : Img) (Wq Wk : WIdx → EReal)

/-- The mean of window n of image c: the window's sum times 2⁻¹⁰. -/
def pooled (c n : Fin 64) : EReal :=
  (∑ r : Fin 32, ∑ s : Fin 32, x c (winRow n r) (winCol n s)) * Ideal.ofBits .f32 0x3A800000#32

/-- Window n's pooled channels projected by row k of a weight matrix. -/
def proj (W : WIdx → EReal) (n k : Fin 64) : EReal :=
  ∑ c : Fin 64, pooled x c n * W (ix2 k c)

/-- The scaled inner product of query n with key m. -/
def score (n m : Fin 64) : EReal :=
  (∑ k : Fin 64, proj x Wq n k * proj x Wk m k) * Ideal.ofBits .f32 0x3E000000#32

/-- The largest score of row n (taken from -∞, and once more against -∞, as both programs do). -/
def rowMax (n : Fin 64) : EReal :=
  max (Ideal.ofBits .f32 0xFF800000#32)
    ((Finset.univ : Finset (Fin 64)).fold max (Ideal.ofBits .f32 0xFF800000#32) (fun m => score x Wq Wk n m))

def expo (n m : Fin 64) : EReal := Ideal.exp (score x Wq Wk n m - rowMax x Wq Wk n)

/-- The softmax of row n of the scores. -/
def dist (n m : Fin 64) : EReal :=
  Ideal.div (expo x Wq Wk n m) (∑ m' : Fin 64, expo x Wq Wk n m')

/-- Windows of one image y combined with weights d: at (h, w), the sum over windows m of d (window of (h, w)) m
    times y at the same in-window position of window m. -/
def applyWin (d : Fin 64 → Fin 64 → EReal) (y : Fin 256 → Fin 256 → EReal) (h w : Fin 256) : EReal :=
  ∑ m : Fin 64, d (winOf h w) m * y (winRow m (inWin h)) (winCol m (inWin w))

/-- Batch entry b of the input as a stack of images. -/
def img (X : XIdx → EReal) (b : Fin 16) : Img := fun c h w => X (ix4 b c h w)

/-- The attention matrix as an array [16, 64, 64]. -/
def distArr (X : XIdx → EReal) (Wq Wk : WIdx → EReal) : DIdx → EReal :=
  fun i => dist (img X (i 0)) Wq Wk (i 1) (i 2)

/-- An array [16, 64, 64] of weights applied to the windows of x. -/
def apply (X : XIdx → EReal) (D : DIdx → EReal) : XIdx → EReal := fun i =>
  applyWin (fun n m => D (ix3 (i 0) n m)) (fun h w => X (ix4 (i 0) (i 1) h w)) (i 2) (i 3)

/-- The result. -/
def out (X : XIdx → EReal) (Wq Wk : WIdx → EReal) : XIdx → EReal := apply X (distArr X Wq Wk)

end Cert.Spec

end
-- ==== Proof.KBlocks0.lean ====
/-
  The first region's result as one array. The region has one grid point per batch entry b; at point b it reads the
  whole block x[b] (64 images) and both weight matrices whole, and writes block b of the [16, 64, 64] attention
  array. If the body's stored value at entry (n, m) is the specification's softmax entry of the images it read, then
  after the region the array is the specification's attention array of the arrays the region found: block b is what
  point b wrote, and the sixteen blocks tile the array.
-/
import proofs.«157101_j39797166964879_2_alg».proof.Proof.Gen.KernelIdeal.Frame
import proofs.«157101_j39797166964879_2_alg».proof.Proof.Spec
import Idealize.ShloMosaic.Lib.Pipeline.Value
import Idealize.ShloMosaic.Lib.ValueIdx

set_option maxRecDepth 16384

noncomputable section

namespace Cert.KernelValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The first region's stored value, entry by entry, is the specification's softmax of the block it read. -/
def PayDist : Prop :=
  ∀ (x0 : Vec Ideal S1x64x256x256 .f32) (x1 x2 : Vec Ideal S64x64 .f32) (n m : Fin 64),
    k0_pay1 (k0_pay2 x0 x1 x2) (ix3 (0 : Fin 1) n m)
      = Cert.Spec.dist (fun c h w => x0 (ix4 (0 : Fin 1) c h w)) x1 x2 n m

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: point t reads block t of the input and writes block t of the attention array; the
    weight matrices are one block each. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input block at point t is batch entry t. -/
theorem blk0_x (c : Dev nD) (t : Fin cfg0.N) (ch : Fin 64) (h w : Fin 256) :
    (iblk0 V c 0 t : Vec Ideal S1x64x256x256 .f32) (ix4 (0 : Fin 1) ch h w)
      = V c main_arg0 (ix4 (⟨t.val, t.isLt⟩ : Fin 16) ch h w) := by
  obtain ⟨e0, e1, e2, e3, -⟩ := idx_facts0 t
  show V c main_arg0 (((cfg0.win 0).blk t).view.emb (ix4 (0 : Fin 1) ch h w)) = _
  refine congrArg (V c main_arg0) (funext fun a => Fin.ext ?_)
  match a with
  | ⟨0, _⟩ => show win0_0.index t (0 : Fin 4) * 1 + 1 * 0 = t.val; omega
  | ⟨1, _⟩ => show win0_0.index t (1 : Fin 4) * 64 + 1 * ch.val = ch.val; omega
  | ⟨2, _⟩ => show win0_0.index t (2 : Fin 4) * 256 + 1 * h.val = h.val; omega
  | ⟨3, _⟩ => show win0_0.index t (3 : Fin 4) * 256 + 1 * w.val = w.val; omega

/-- A weight matrix's one block is the matrix. -/
theorem blk0_wq (c : Dev nD) (t : Fin cfg0.N) :
    (iblk0 V c 1 t : Vec Ideal S64x64 .f32) = V c main_arg1 := by
  obtain ⟨-, -, -, -, e4, e5, -⟩ := idx_facts0 t
  funext y
  show V c main_arg1 (((cfg0.win 1).blk t).view.emb y) = _
  refine congrArg (V c main_arg1) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem blk0_wk (c : Dev nD) (t : Fin cfg0.N) :
    (iblk0 V c 2 t : Vec Ideal S64x64 .f32) = V c main_arg2 := by
  obtain ⟨-, -, -, -, -, -, e6, e7, -⟩ := idx_facts0 t
  funext y
  show V c main_arg2 (((cfg0.win 2).blk t).view.emb y) = _
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Entry (0, n, m) of the output block at point t lies at (t, n, m) of the attention array. -/
theorem emb0_out (t : Fin cfg0.N) (n m : Fin 64) :
    ((cfg0.win 3).blk t).view.emb (ix3 (0 : Fin 1) n m) = ix3 (⟨t.val, t.isLt⟩ : Fin 16) n m := by
  obtain ⟨-, -, -, -, -, -, -, -, e8, e9, e10⟩ := idx_facts0 t
  refine funext fun a => Fin.ext ?_
  match a with
  | ⟨0, _⟩ => show win0_3.index t (0 : Fin 3) * 1 + 1 * 0 = t.val; omega
  | ⟨1, _⟩ => show win0_3.index t (1 : Fin 3) * 64 + 1 * n.val = n.val; omega
  | ⟨2, _⟩ => show win0_3.index t (2 : Fin 3) * 64 + 1 * m.val = m.val; omega

/-- WHAT POINT t WRITES BACK is block t of the specification's attention array of the arrays the region found. -/
theorem flushed0_eq (hpay : PayDist) (c : Dev nD) (t : Fin cfg0.N) :
    (dat0 V c).flushed 3 t
      = ((cfg0.win 3).blk t).view.read (Elt Ideal) (Cert.Spec.distArr (V c main_arg0) (V c main_arg1) (V c main_arg2)) := by
  show (cfg0.win 3).cut (grid0.coords t) ((dat0 V c).after 3 t) = _
  rw [after0_3]
  unfold out0_3
  rw [View.canon_unit_zero hz3]
  simp only [View.ld_unit_zero (S := S1x64x256x256) hz4, View.ld_unit_zero (S := S64x64) hz2]
  rw [blk0_wq, blk0_wk]
  show (fun j : S1x64x64.Idx => k0_pay1 (k0_pay2 (iblk0 V c 0 t) (V c main_arg1) (V c main_arg2)) j)
    = fun j : S1x64x64.Idx => Cert.Spec.distArr (V c main_arg0) (V c main_arg1) (V c main_arg2) (((cfg0.win 3).blk t).view.emb j)
  funext j
  obtain ⟨u, n, m, rfl⟩ : ∃ (u : Fin 1) (n m : Fin 64), j = ix3 u n m := ⟨j 0, j 1, j 2, eq_ix3 j⟩
  obtain rfl : u = 0 := Subsingleton.elim _ _
  rw [hpay, emb0_out]
  show _ = Cert.Spec.dist (Cert.Spec.img (V c main_arg0) ⟨t.val, t.isLt⟩) (V c main_arg1) (V c main_arg2) n m
  refine congrArg (fun x => Cert.Spec.dist x (V c main_arg1) (V c main_arg2) n m) ?_
  funext ch h w
  exact blk0_x V c t ch h w

/-- An index of the attention array is in point t's block iff each coordinate is in the block's range on its axis. -/
theorem mem_blk0 (t : Fin cfg0.N) (i : S16x64x64.Idx) :
    i ∈ ((cfg0.win 3).blk t).view.set ↔ ∀ a : Fin 3, win0_3.index t a * S1x64x64.size a ≤ (i a).val ∧ (i a).val < win0_3.index t a * S1x64x64.size a + S1x64x64.size a := by
  show i ∈ ((View.whole main_v0).slice (win0_3.rect t)).set ↔ _
  rw [View.set_slice_whole, Rect.mem_set_unit]
  exact Iff.rfl

/-- Every index of the attention array is in the block of the point named by its batch coordinate. -/
theorem cover0 (i : S16x64x64.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 64 := (i 2).isLt
  have hN : grid0.N = 16 := N_0
  have hN' : cfg0.N = 16 := N_0
  refine ⟨⟨(i 0).val, by omega⟩, flush0_3 _, ?_⟩
  rw [mem_blk0]
  obtain ⟨-, -, -, -, -, -, -, -, e8, e9, e10⟩ := idx_facts0 ⟨(i 0).val, by omega⟩
  have e8' : win0_3.index ⟨(i 0).val, by omega⟩ (0 : Fin 3) = (i 0).val := e8
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 64 ≤ (i 1).val ∧ (i 1).val < win0_3.index _ (1 : Fin 3) * 64 + 64; omega
  | ⟨2, _⟩ => show win0_3.index _ (2 : Fin 3) * 64 ≤ (i 2).val ∧ (i 2).val < win0_3.index _ (2 : Fin 3) * 64 + 64; omega

/-- THE ATTENTION ARRAY after the first region: the specification's, of the arrays the region found. -/
theorem dist_final (hpay : PayDist) (c : Dev nD) :
    (dat0 V c).arrAt 3 cfg0.N = Cert.Spec.distArr (V c main_arg0) (V c main_arg1) (V c main_arg2) :=
  (dat0 V c).arrAt_eq_of_cover 3 _ (fun t _ => flushed0_eq V hpay c t) cover0

end Cert.KernelValue

end
-- ==== Proof.KBlocks1.lean ====
/-
  The second region's result as one array. The region has one grid point per (batch entry b, group g of sixteen
  channels), point 4·b + g; there it reads the sixteen images x[b, 16·g … 16·g+15] and block b of the attention
  array, and writes the same sixteen images of the result. If the body's stored value at (image, row, column) is the
  specification's window combination of what it read, then after the region the result array is the specification's
  combination of the input array and the attention array the region found: the 64 blocks tile the array.
-/
import proofs.«157101_j39797166964879_2_alg».proof.Proof.Gen.KernelIdeal.Frame
import proofs.«157101_j39797166964879_2_alg».proof.Proof.Spec
import Idealize.ShloMosaic.Lib.Pipeline.Value
import Idealize.ShloMosaic.Lib.ValueIdx

set_option maxRecDepth 16384

noncomputable section

namespace Cert.KernelValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The second region's stored value, entry by entry, is the specification's window combination of the blocks it read. -/
def PayApply : Prop :=
  ∀ (x0 : Vec Ideal S1x16x256x256 .f32) (x1 : Vec Ideal S1x64x64 .f32) (tc : Fin 16) (h w : Fin 256),
    k1_pay1 x0 x1 (ix4 (0 : Fin 1) tc h w)
      = Cert.Spec.applyWin (fun n m => x1 (ix3 (0 : Fin 1) n m)) (fun h w => x0 (ix4 (0 : Fin 1) tc h w)) h w

variable (V : (c : Dev nD) → (b : Ref sig .tc) → Buf (Elt Ideal) ((c : Thread nD τ).loc b))

theorem hz4' : (![0, 0, 0, 0] : Fin 4 → Nat) = fun _ => 0 := funext fun a => by fin_cases a <;> rfl
theorem hz3' : (![0, 0, 0] : Fin 3 → Nat) = fun _ => 0 := funext fun a => by fin_cases a <;> rfl

/-- The index maps over the grid: point t = 4·b + g reads and writes images 16·g … of batch entry b, and reads block b
    of the attention array. -/
theorem idx_facts1 : ∀ t : Fin cfg1.N,
    win1_0.index t (0 : Fin 4) = t.val / 4 ∧ win1_0.index t (1 : Fin 4) = t.val % 4 ∧ win1_0.index t (2 : Fin 4) = 0 ∧ win1_0.index t (3 : Fin 4) = 0
    ∧ win1_1.index t (0 : Fin 3) = t.val / 4 ∧ win1_1.index t (1 : Fin 3) = 0 ∧ win1_1.index t (2 : Fin 3) = 0
    ∧ win1_2.index t (0 : Fin 4) = t.val / 4 ∧ win1_2.index t (1 : Fin 4) = t.val % 4 ∧ win1_2.index t (2 : Fin 4) = 0 ∧ win1_2.index t (3 : Fin 4) = 0 :=
  (by decide +kernel : ∀ t : Fin grid1.N, _)

/-- The batch entry and the first channel of point t. -/
def ptB (t : Fin cfg1.N) : Fin 16 := ⟨t.val / 4, by have := t.isLt; have : cfg1.N = 64 := N_1; omega⟩
def ptC (t : Fin cfg1.N) (tc : Fin 16) : Fin 64 := ⟨t.val % 4 * 16 + tc.val, by omega⟩

/-- The input block at point t: sixteen images of one batch entry. -/
theorem blk1_x (c : Dev nD) (t : Fin cfg1.N) (tc : Fin 16) (h w : Fin 256) :
    (iblk1 V c 0 t : Vec Ideal S1x16x256x256 .f32) (ix4 (0 : Fin 1) tc h w)
      = V c main_arg0 (ix4 (ptB t) (ptC t tc) h w) := by
  obtain ⟨e0, e1, e2, e3, -⟩ := idx_facts1 t
  show V c main_arg0 (((cfg1.win 0).blk t).view.emb (ix4 (0 : Fin 1) tc h w)) = _
  refine congrArg (V c main_arg0) (funext fun a => Fin.ext ?_)
  match a with
  | ⟨0, _⟩ => show win1_0.index t (0 : Fin 4) * 1 + 1 * 0 = t.val / 4; omega
  | ⟨1, _⟩ => show win1_0.index t (1 : Fin 4) * 16 + 1 * tc.val = t.val % 4 * 16 + tc.val; omega
  | ⟨2, _⟩ => show win1_0.index t (2 : Fin 4) * 256 + 1 * h.val = h.val; omega
  | ⟨3, _⟩ => show win1_0.index t (3 : Fin 4) * 256 + 1 * w.val = w.val; omega

/-- The attention block at point t: the batch entry's 64 × 64 matrix. -/
theorem blk1_d (c : Dev nD) (t : Fin cfg1.N) (n m : Fin 64) :
    (iblk1 V c 1 t : Vec Ideal S1x64x64 .f32) (ix3 (0 : Fin 1) n m) = V c main_v0 (ix3 (ptB t) n m) := by
  obtain ⟨-, -, -, -, e4, e5, e6, -⟩ := idx_facts1 t
  show V c main_v0 (((cfg1.win 1).blk t).view.emb (ix3 (0 : Fin 1) n m)) = _
  refine congrArg (V c main_v0) (funext fun a => Fin.ext ?_)
  match a with
  | ⟨0, _⟩ => show win1_1.index t (0 : Fin 3) * 1 + 1 * 0 = t.val / 4; omega
  | ⟨1, _⟩ => show win1_1.index t (1 : Fin 3) * 64 + 1 * n.val = n.val; omega
  | ⟨2, _⟩ => show win1_1.index t (2 : Fin 3) * 64 + 1 * m.val = m.val; omega

/-- Entry (0, tc, h, w) of the output block at point t lies at (batch entry, channel, h, w) of the result array. -/
theorem emb1_out (t : Fin cfg1.N) (tc : Fin 16) (h w : Fin 256) :
    ((cfg1.win 2).blk t).view.emb (ix4 (0 : Fin 1) tc h w) = ix4 (ptB t) (ptC t tc) h w := by
  obtain ⟨-, -, -, -, -, -, -, e7, e8, e9, e10⟩ := idx_facts1 t
  refine funext fun a => Fin.ext ?_
  match a with
  | ⟨0, _⟩ => show win1_2.index t (0 : Fin 4) * 1 + 1 * 0 = t.val / 4; omega
  | ⟨1, _⟩ => show win1_2.index t (1 : Fin 4) * 16 + 1 * tc.val = t.val % 4 * 16 + tc.val; omega
  | ⟨2, _⟩ => show win1_2.index t (2 : Fin 4) * 256 + 1 * h.val = h.val; omega
  | ⟨3, _⟩ => show win1_2.index t (3 : Fin 4) * 256 + 1 * w.val = w.val; omega

/-- WHAT POINT t WRITES BACK is block t of the specification's combination of the arrays the region found. -/
theorem flushed1_eq (hpay : PayApply) (c : Dev nD) (t : Fin cfg1.N) :
    (dat1 V c).flushed 2 t
      = ((cfg1.win 2).blk t).view.read (Elt Ideal) (Cert.Spec.apply (V c main_arg0) (V c main_v0)) := by
  show (cfg1.win 2).cut (grid1.coords t) ((dat1 V c).after 2 t) = _
  rw [after1_2]
  unfold out1_2
  rw [View.canon_unit_zero hz4']
  simp only [View.ld_unit_zero (S := S1x16x256x256) hz4', View.ld_unit_zero (S := S1x64x64) hz3']
  show (fun j : S1x16x256x256.Idx => k1_pay1 (iblk1 V c 0 t) (iblk1 V c 1 t) j)
    = fun j : S1x16x256x256.Idx => Cert.Spec.apply (V c main_arg0) (V c main_v0) (((cfg1.win 2).blk t).view.emb j)
  funext j
  obtain ⟨u, tc, h, w, rfl⟩ : ∃ (u : Fin 1) (tc : Fin 16) (h w : Fin 256), j = ix4 u tc h w := ⟨j 0, j 1, j 2, j 3, eq_ix4 j⟩
  obtain rfl : u = 0 := Subsingleton.elim _ _
  have hd : (fun n m => (iblk1 V c 1 t : Vec Ideal S1x64x64 .f32) (ix3 (0 : Fin 1) n m)) = fun n m => V c main_v0 (ix3 (ptB t) n m) :=
    funext fun n => funext fun m => blk1_d V c t n m
  have hx : (fun h w => (iblk1 V c 0 t : Vec Ideal S1x16x256x256 .f32) (ix4 (0 : Fin 1) tc h w)) = fun h w => V c main_arg0 (ix4 (ptB t) (ptC t tc) h w) :=
    funext fun h => funext fun w => blk1_x V c t tc h w
  refine (hpay _ _ tc h w).trans ?_
  rw [emb1_out]
  exact congrArg₂ (fun d y => Cert.Spec.applyWin d y h w) hd hx

/-- An index of the result array is in point t's block iff each coordinate is in the block's range on its axis. -/
theorem mem_blk1 (t : Fin cfg1.N) (i : S16x64x256x256.Idx) :
    i ∈ ((cfg1.win 2).blk t).view.set ↔ ∀ a : Fin 4, win1_2.index t a * S1x16x256x256.size a ≤ (i a).val ∧ (i a).val < win1_2.index t a * S1x16x256x256.size a + S1x16x256x256.size a := by
  show i ∈ ((View.whole main_v1).slice (win1_2.rect t)).set ↔ _
  rw [View.set_slice_whole, Rect.mem_set_unit]
  exact Iff.rfl

/-- Every index of the result array is in the block of the point named by its batch entry and channel group. -/
theorem cover1 (i : S16x64x256x256.Idx) :
    ∃ t : Fin cfg1.N, (cfg1.win 2).flush t = true ∧ i ∈ ((cfg1.win 2).blk t).view.set := by
  have hi0 : (i 0).val < 16 := (i 0).isLt
  have hi1 : (i 1).val < 64 := (i 1).isLt
  have hi2 : (i 2).val < 256 := (i 2).isLt
  have hi3 : (i 3).val < 256 := (i 3).isLt
  have hN : grid1.N = 64 := N_1
  have hN' : cfg1.N = 64 := N_1
  refine ⟨⟨(i 0).val * 4 + (i 1).val / 16, by omega⟩, flush1_2 _, ?_⟩
  rw [mem_blk1]
  obtain ⟨-, -, -, -, -, -, -, e7, e8, e9, e10⟩ := idx_facts1 ⟨(i 0).val * 4 + (i 1).val / 16, by omega⟩
  have e7' : win1_2.index ⟨(i 0).val * 4 + (i 1).val / 16, by omega⟩ (0 : Fin 4) = ((i 0).val * 4 + (i 1).val / 16) / 4 := e7
  have e8' : win1_2.index ⟨(i 0).val * 4 + (i 1).val / 16, by omega⟩ (1 : Fin 4) = ((i 0).val * 4 + (i 1).val / 16) % 4 := e8
  intro a
  match a with
  | ⟨0, _⟩ => show win1_2.index _ (0 : Fin 4) * 1 ≤ (i 0).val ∧ (i 0).val < win1_2.index _ (0 : Fin 4) * 1 + 1; omega
  | ⟨1, _⟩ => show win1_2.index _ (1 : Fin 4) * 16 ≤ (i 1).val ∧ (i 1).val < win1_2.index _ (1 : Fin 4) * 16 + 16; omega
  | ⟨2, _⟩ => show win1_2.index _ (2 : Fin 4) * 256 ≤ (i 2).val ∧ (i 2).val < win1_2.index _ (2 : Fin 4) * 256 + 256; omega
  | ⟨3, _⟩ => show win1_2.index _ (3 : Fin 4) * 256 ≤ (i 3).val ∧ (i 3).val < win1_2.index _ (3 : Fin 4) * 256 + 256; omega

/-- THE RESULT ARRAY after the second region: the specification's combination of the input and the attention array
    the region found. -/
theorem out_final (hpay : PayApply) (c : Dev nD) :
    (dat1 V c).arrAt 2 cfg1.N = Cert.Spec.apply (V c main_arg0) (V c main_v0) :=
  (dat1 V c).arrAt_eq_of_cover 2 _ (fun t _ => flushed1_eq V hpay c t) cover1

end Cert.KernelValue

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KDist.lean ====
/-
  What the first region of the kernel stores, entry by entry, at exact arithmetic.

  One batch entry's block x : [1, 64, 256, 256] is summed over the 32 x 32 windows of each image in two steps
  (first over the columns of a window, then over its rows), scaled to the window means, and laid out as a
  64 x 64 matrix (channel, window). Its transpose is multiplied by the transposes of the two weight matrices,
  giving the queries and the keys; their scaled inner products are the scores, and each row of scores is
  turned into a distribution by subtracting the row's maximum, exponentiating and dividing by the row's sum.
  Every step is read at an entry and matched with the specification's definition of the same quantity:
  the sums are the specification's sums in the same order, only the indices are renamed.
-/
import proofs.«157101_j39797166964879_2_alg».proof.Proof.Spec
import proofs.«157101_j39797166964879_2_alg».proof.Proof.Gen.KernelIdeal.Skeleton
import proofs.«157101_j39797166964879_2_alg».proof.Proof.LibDotEntry
import proofs.«157101_j39797166964879_2_alg».proof.Proof.LibRowOps
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.TcCoe Idealize.SL.Sem Idealize.ShloMosaic.ValueIdx
open Cert.KernelIdeal Cert.KernelIdeal.Gen

/-! ## Sums over one axis of a rank-3 block, read at an entry -/

/-- A float sum of an `[a, b, c]` block over its last axis, read at `(p, q)`, is the sum over `k` of the block at `(p, q, k)`. -/
theorem multiReduction_add_last3 {a b c : ℕ} (src : FVec Ideal ⟨3, ![a, b, c]⟩ .f32) (acc : BitVec 32)
    (h : (⟨3, ![a, b, c]⟩ : Shape).Reduces [2] ⟨2, ![a, b]⟩) (hφ : FKind.Formats .f32) (hacc : acc = FKind.add.neutral .f32 hφ)
    (p : Fin a) (q : Fin b) :
    multiReduction (F := Ideal) .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src ?_
  funext d; apply Fin.ext
  match d with
  | ⟨0, _⟩ => rfl
  | ⟨1, _⟩ => rfl
  | ⟨2, _⟩ => rfl

/-- A float sum of an `[a, b, c]` block over its middle axis, read at `(p, q)`, is the sum over `k` of the block at `(p, k, q)`. -/
theorem multiReduction_add_mid3 {a b c : ℕ} (src : FVec Ideal ⟨3, ![a, b, c]⟩ .f32) (acc : BitVec 32)
    (h : (⟨3, ![a, b, c]⟩ : Shape).Reduces [1] ⟨2, ![a, c]⟩) (hφ : FKind.Formats .f32) (hacc : acc = FKind.add.neutral .f32 hφ)
    (p : Fin a) (q : Fin c) :
    multiReduction (F := Ideal) .add [1] ⟨2, ![a, c]⟩ src acc h hφ hacc (ix2 p q) = ∑ k : Fin b, src (ix3 p k q) := by
  refine (Ideal.multiReduction_add_single src acc h hφ hacc (ix2 p q)).trans ?_
  refine Finset.sum_congr rfl fun k _ => congrArg src ?_
  funext d; apply Fin.ext
  match d with
  | ⟨0, _⟩ => rfl
  | ⟨1, _⟩ => rfl
  | ⟨2, _⟩ => rfl

/-! ## The window means -/

/-- The block's column-window sums: `[64·256, 8]`, row `c·256 + h`, entry `pj` the sum of 32 consecutive columns. -/
def kColSum (x0 : Vec Ideal S1x64x256x256 .f32) : FVec Ideal S16384x8 .f32 :=
  multiReduction (F := Ideal) .add [2] S16384x8
    (shapeCast S16384x8x32 (shapeCast S64x256x256 x0 shapeCasts_S1x64x256x256_S64x256x256) shapeCasts_S64x256x256_S16384x8x32)
    0x00000000#32 reduces_S16384x8x32_S16384x8 (.inl rfl) rfl

/-- The window sums: `[64·8, 8]`, row `c·8 + pi`, entry `pj`. -/
def kWinSum (x0 : Vec Ideal S1x64x256x256 .f32) : FVec Ideal S512x8 .f32 :=
  multiReduction (F := Ideal) .add [1] S512x8 (shapeCast S512x32x8 (kColSum x0) shapeCasts_S16384x8_S512x32x8)
    0x00000000#32 reduces_S512x32x8_S512x8 (.inl rfl) rfl

/-- The window means as a matrix (channel, window). -/
def kPool (x0 : Vec Ideal S1x64x256x256 .f32) : FVec Ideal S64x64 .f32 :=
  shapeCast S64x64 (mulf (kWinSum x0) (broadcast S512x8 (Scalar.ofBits (F := Ideal) .f32 0x3A800000#32))) shapeCasts_S512x8_S64x64

/-- Row `c·256 + h` of the column-window sums, at `pj`: the sum over `s` of the image `c` at row `h`, column `32·pj + s`. -/
theorem kColSum_apply (x0 : Vec Ideal S1x64x256x256 .f32) (c : Fin 64) (h : Fin 256) (pj : Fin 8) (a : Fin 16384)
    (ha : a.val = c.val * 256 + h.val) :
    kColSum x0 (ix2 a pj) = ∑ s : Fin 32, x0 (ix4 (0 : Fin 1) c h ⟨pj.val * 32 + s.val, by omega⟩) := by
  unfold kColSum
  refine (multiReduction_add_last3 _ _ _ _ _ a pj).trans ?_
  refine Finset.sum_congr rfl fun s _ => ?_
  refine (shapeCast_apply _ _ _ (ix3 c h ⟨pj.val * 32 + s.val, by omega⟩) ?_).trans ?_
  · rw [Shape.rowMajor_val_three, Shape.rowMajor_val_three]
    show (c.val * 256 + h.val) * 256 + (pj.val * 32 + s.val) = (a.val * 8 + pj.val) * 32 + s.val
    omega
  · exact shapeCast_1abc_abc_apply _ _ c h _

/-- Row `c·8 + pi` of the window sums, at `pj`: the sum over the window's rows and columns. -/
theorem kWinSum_apply (x0 : Vec Ideal S1x64x256x256 .f32) (c : Fin 64) (n : Fin 64) (q : Fin 512) (pj : Fin 8)
    (hq : q.val = c.val * 8 + n.val / 8) (hpj : pj.val = n.val % 8) :
    kWinSum x0 (ix2 q pj)
      = ∑ r : Fin 32, ∑ s : Fin 32, x0 (ix4 (0 : Fin 1) c (Cert.Spec.winRow n r) (Cert.Spec.winCol n s)) := by
  unfold kWinSum
  refine (multiReduction_add_mid3 _ _ _ _ _ q pj).trans ?_
  refine Finset.sum_congr rfl fun r _ => ?_
  refine (shapeCast_apply _ _ _ (ix2 (⟨q.val * 32 + r.val, by omega⟩ : Fin 16384) pj) ?_).trans ?_
  · rw [Shape.rowMajor_val_three, Shape.rowMajor_val_two]
    rfl
  · refine (kColSum_apply x0 c (Cert.Spec.winRow n r) pj _ ?_).trans ?_
    · show q.val * 32 + r.val = c.val * 256 + (n.val / 8 * 32 + r.val)
      omega
    · refine Finset.sum_congr rfl fun s _ => congrArg x0 ?_
      have e : (⟨pj.val * 32 + s.val, by omega⟩ : Fin 256) = Cert.Spec.winCol n s := Fin.ext (by
        show pj.val * 32 + s.val = n.val % 8 * 32 + s.val
        rw [hpj])
      rw [e]

/-- The window means at (channel, window) are the specification's. -/
theorem kPool_apply (x0 : Vec Ideal S1x64x256x256 .f32) (c n : Fin 64) :
    kPool x0 (ix2 c n) = Cert.Spec.pooled (fun c h w => x0 (ix4 (0 : Fin 1) c h w)) c n := by
  unfold kPool
  refine (shapeCast_apply _ _ _ (ix2 (⟨c.val * 8 + n.val / 8, by omega⟩ : Fin 512) (⟨n.val % 8, by omega⟩ : Fin 8)) ?_).trans ?_
  · rw [Shape.rowMajor_val_two, Shape.rowMajor_val_two]
    show (c.val * 8 + n.val / 8) * 8 + n.val % 8 = c.val * 64 + n.val
    omega
  · rw [mulf_apply, kWinSum_apply x0 c n _ _ rfl rfl]
    rfl

/-! ## Queries, keys and scores -/

/-- A (channel, window) matrix `P` projected by a weight matrix `W`: the product of `P` transposed by `W` transposed. -/
def kProj (P W : FVec Ideal S64x64 .f32) : FVec Ideal S64x64 .f32 :=
  matmul dot_S64x64_S64x64_S64x64_1_0_0_1_n_n none
    (truncf .bf16 (transpose S64x64 [1, 0] P transposes_S64x64_p1_0_S64x64) bitsLt_bf16_f32)
    (truncf .bf16 (transpose S64x64 [1, 0] W transposes_S64x64_p1_0_S64x64) bitsLt_bf16_f32)
    (constant S64x64 .f32 0x00000000#32)

/-- Entry (window `n`, output `k`) of the projection: the sum over channels of `P (c, n) · W (k, c)`. -/
theorem kProj_apply (P W : FVec Ideal S64x64 .f32) (n k : Fin 64) :
    kProj P W (ix2 n k) = ∑ c : Fin 64, P (ix2 c n) * W (ix2 k c) := by
  unfold kProj
  refine (Cert.Lib.DotEntry.matmul_zero_ix2 dot_S64x64_S64x64_S64x64_1_0_0_1_n_n rfl rfl
    (fun _ _ => rfl) (fun _ _ => rfl) (fun _ _ => rfl) (fun _ _ => rfl) _ _ n k).trans ?_
  refine Finset.sum_congr rfl fun c _ => ?_
  rw [truncf_apply, truncf_apply, transpose_ix2_apply, transpose_ix2_apply]

/-- The scaled inner products of the rows of `Q` with the rows of `K`. -/
def kScore (Q K : FVec Ideal S64x64 .f32) : FVec Ideal S64x64 .f32 :=
  mulf
    (matmul dot_S64x64_S64x64_S64x64_1_0_0_1_n_n none
      (truncf .bf16 Q bitsLt_bf16_f32)
      (truncf .bf16 (transpose S64x64 [1, 0] K transposes_S64x64_p1_0_S64x64) bitsLt_bf16_f32)
      (constant S64x64 .f32 0x00000000#32))
    (broadcast S64x64 (Scalar.ofBits (F := Ideal) .f32 0x3E000000#32))

theorem kScore_apply (Q K : FVec Ideal S64x64 .f32) (n m : Fin 64) :
    kScore Q K (ix2 n m) = (∑ k : Fin 64, Q (ix2 n k) * K (ix2 m k)) * Ideal.ofBits .f32 0x3E000000#32 := by
  unfold kScore
  rw [mulf_apply]
  refine congrArg₂ (· * ·) ?_ rfl
  refine (Cert.Lib.DotEntry.matmul_zero_ix2 dot_S64x64_S64x64_S64x64_1_0_0_1_n_n rfl rfl
    (fun _ _ => rfl) (fun _ _ => rfl) (fun _ _ => rfl) (fun _ _ => rfl) _ _ n m).trans ?_
  refine Finset.sum_congr rfl fun k _ => ?_
  rw [truncf_apply, truncf_apply, transpose_ix2_apply]

/-! ## The row-wise normalisation -/

/-- The largest entry of each row of `S`, taken from -∞ and once more against -∞. -/
def kRowMax (S : FVec Ideal S64x64 .f32) : FVec Ideal S64 .f32 :=
  maximumf (broadcast S64 (Scalar.ofBits (F := Ideal) .f32 0xFF800000#32))
    (multiReduction (F := Ideal) .maximumf [1] S64 S 0xFF800000#32 reduces_S64x64_S64 (.inl rfl) rfl)

theorem kRowMax_apply (S : FVec Ideal S64x64 .f32) (n : Fin 64) :
    kRowMax S (ix1 n) = max (Ideal.ofBits .f32 0xFF800000#32)
      ((Finset.univ : Finset (Fin 64)).fold max (Ideal.ofBits .f32 0xFF800000#32) (fun m => S (ix2 n m))) := by
  unfold kRowMax
  rw [maximumf_apply]
  refine congrArg₂ max rfl ?_
  refine (Ideal.multiReduction_maximumf_single S _ reduces_S64x64_S64 _ _ (ix1 n)).trans ?_
  refine congrArg (fun f => (Finset.univ : Finset (Fin 64)).fold max (Ideal.ofBits .f32 0xFF800000#32) f) ?_
  funext m
  refine congrArg S ?_
  funext d; apply Fin.ext
  match d with
  | ⟨0, _⟩ => rfl
  | ⟨1, _⟩ => rfl

/-- Each entry of `S` less its row's maximum, exponentiated. -/
def kExpo (S : FVec Ideal S64x64 .f32) : FVec Ideal S64x64 .f32 :=
  exp (subf S (broadcastTo S64x64 (shapeCast S64x1 (kRowMax S) shapeCasts_S64_S64x1) broadcasts_S64x1_S64x64))

theorem kExpo_apply (S : FVec Ideal S64x64 .f32) (n m : Fin 64) :
    kExpo S (ix2 n m) = Ideal.exp (S (ix2 n m) - kRowMax S (ix1 n)) := by
  unfold kExpo
  show Ideal.exp (subf S _ (ix2 n m)) = _
  rw [subf_apply, Cert.Lib.RowOps.broadcastTo_a1_ab_apply, Cert.Lib.RowOps.shapeCast_a_a1_apply]

/-- Each row of exponentials divided by its sum. -/
def kSoft (S : FVec Ideal S64x64 .f32) : FVec Ideal S64x64 .f32 :=
  divf (kExpo S)
    (broadcastTo S64x64
      (shapeCast S64x1 (multiReduction (F := Ideal) .add [1] S64 (kExpo S) 0x00000000#32 reduces_S64x64_S64 (.inl rfl) rfl)
        shapeCasts_S64_S64x1)
      broadcasts_S64x1_S64x64)

theorem kSoft_apply (S : FVec Ideal S64x64 .f32) (n m : Fin 64) :
    kSoft S (ix2 n m) = Ideal.div (kExpo S (ix2 n m)) (∑ m' : Fin 64, kExpo S (ix2 n m')) := by
  unfold kSoft
  rw [divf_apply]
  exact congrArg (Ideal.div (kExpo S (ix2 n m)))
    (Cert.Lib.RowOps.rowSum_keepdims_apply (kExpo S) _ reduces_S64x64_S64 _ _ shapeCasts_S64_S64x1 broadcasts_S64x1_S64x64 n m)

/-! ## The stored block -/

/-- The payload is the composition of the steps above. -/
theorem k0_pay2_eq (x0 : Vec Ideal S1x64x256x256 .f32) (x1 x2 : Vec Ideal S64x64 .f32) :
    k0_pay2 x0 x1 x2 = kSoft (kScore (kProj (kPool x0) x1) (kProj (kPool x0) x2)) := rfl

/-- The scores of the kernel are the specification's. -/
theorem kScore_spec (x0 : Vec Ideal S1x64x256x256 .f32) (x1 x2 : Vec Ideal S64x64 .f32) (n m : Fin 64) :
    kScore (kProj (kPool x0) x1) (kProj (kPool x0) x2) (ix2 n m)
      = Cert.Spec.score (fun c h w => x0 (ix4 (0 : Fin 1) c h w)) x1 x2 n m := by
  rw [kScore_apply]
  unfold Cert.Spec.score Cert.Spec.proj
  refine congrArg₂ (· * ·) ?_ rfl
  refine Finset.sum_congr rfl fun k _ => ?_
  rw [kProj_apply, kProj_apply]
  simp only [kPool_apply]

/-- Entry (n, m) of the block the first region stores is the specification's attention weight. -/
theorem pay_dist (x0 : Vec Ideal S1x64x256x256 .f32) (x1 x2 : Vec Ideal S64x64 .f32) (n m : Fin 64) :
    k0_pay1 (k0_pay2 x0 x1 x2) (ix3 (0 : Fin 1) n m)
      = Cert.Spec.dist (fun c h w => x0 (ix4 (0 : Fin 1) c h w)) x1 x2 n m := by
  unfold k0_pay1
  refine (shapeCast_ab_1ab_apply _ _ (0 : Fin 1) n m).trans ?_
  rw [k0_pay2_eq, kSoft_apply]
  unfold Cert.Spec.dist Cert.Spec.expo Cert.Spec.rowMax
  simp only [kExpo_apply, kRowMax_apply, kScore_spec]

end Cert.KernelValue

end
-- ==== Proof.KApply.lean ====
/-
  What the kernel's second region stores, entry by entry, over the extended reals.

  From a block of sixteen 256 × 256 images and a 64 × 64 matrix d of weights the region computes, for each image y of
  the block and each position (h, w),
      Σ_m d (window of (h, w)) m · y (32·(m / 8) + h % 32) (32·(m % 8) + w % 32),
  the windows of y combined by row (window of (h, w)) of d at the in-window position of (h, w).

  The region does this with one matrix product. It cuts every image into its 8 × 8 grid of 32 × 32 windows and lays
  the block out as a 64 × 16384 matrix whose row m is window m of all sixteen images and whose column
  (tc·32 + r)·32 + s is position (r, s) inside the window of image tc; multiplies the weights by this matrix into a
  zero accumulator (the roundings of the two factors are the identity at exact arithmetic); and lays the product
  back as images by the inverse layout. Each layout step only moves entries, so the stored entry at
  (tc, h, w) is the product's entry at row 8·(h / 32) + w / 32 and column (tc·32 + h % 32)·32 + w % 32: the sum above.
-/
import proofs.«157101_j39797166964879_2_alg».proof.Proof.Spec
import proofs.«157101_j39797166964879_2_alg».proof.Proof.Gen.KernelIdeal.Skeleton
import proofs.«157101_j39797166964879_2_alg».proof.Proof.LibDotEntry
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.TcCoe Idealize.SL.Sem Idealize.ShloMosaic.ValueIdx
open Cert.KernelIdeal Cert.KernelIdeal.Gen

/-- The block of sixteen images laid out as a 64 × 16384 matrix: row m holds window m of every image, column
    (tc·32 + r)·32 + s the position (r, s) inside that window of image tc. -/
def winMat (x0 : Vec Ideal S1x16x256x256 .f32) : FVec Ideal S64x16384 .f32 :=
  shapeCast S64x16384
    (transpose S8x8x16x32x32 [1, 3, 0, 2, 4]
      (shapeCast S16x8x32x8x32 (shapeCast S16x256x256 x0 shapeCasts_S1x16x256x256_S16x256x256)
        shapeCasts_S16x256x256_S16x8x32x8x32)
      transposes_S16x8x32x8x32_p1_3_0_2_4_S8x8x16x32x32)
    shapeCasts_S8x8x16x32x32_S64x16384

/-- A 64 × 16384 matrix laid back as a block of sixteen images (the inverse layout). -/
def unwin (v : FVec Ideal S64x16384 .f32) : FVec Ideal S1x16x256x256 .f32 :=
  shapeCast S1x16x256x256
    (shapeCast S16x256x256
      (transpose S16x8x32x8x32 [2, 0, 3, 1, 4] (shapeCast S8x8x16x32x32 v shapeCasts_S64x16384_S8x8x16x32x32)
        transposes_S8x8x16x32x32_p2_0_3_1_4_S16x8x32x8x32)
      shapeCasts_S16x8x32x8x32_S16x256x256)
    shapeCasts_S16x256x256_S1x16x256x256

/-- The weights times the window matrix, into a zero accumulator. -/
def winProd (x0 : Vec Ideal S1x16x256x256 .f32) (x1 : Vec Ideal S1x64x64 .f32) : FVec Ideal S64x16384 .f32 :=
  matmul dot_S64x64_S64x16384_S64x16384_1_0_0_1_n_n none
    (truncf .bf16 (shapeCast S64x64 x1 shapeCasts_S1x64x64_S64x64) bitsLt_bf16_f32)
    (truncf .bf16 (winMat x0) bitsLt_bf16_f32)
    (constant (F := Ideal) S64x16384 .f32 0x00000000#32)

/-- The stored value is the product, laid back as images. -/
theorem pay_eq (x0 : Vec Ideal S1x16x256x256 .f32) (x1 : Vec Ideal S1x64x64 .f32) :
    k1_pay1 x0 x1 = unwin (winProd x0 x1) := rfl

/-- The window matrix at row m and the column of (tc, r, s) is image tc at row r, column s of window m. -/
theorem winMat_apply (x0 : Vec Ideal S1x16x256x256 .f32) (tc : Fin 16) (m : Fin 64) (r s : Fin 32) (j : Fin 16384)
    (hj : j.val = (tc.val * 32 + r.val) * 32 + s.val) :
    winMat x0 (ix2 m j) = x0 (ix4 (0 : Fin 1) tc (Cert.Spec.winRow m r) (Cert.Spec.winCol m s)) := by
  have hm := m.isLt
  have htc := tc.isLt
  have hr := r.isLt
  have hs := s.isLt
  have hpi : m.val / 8 < 8 := by omega
  have hpj : m.val % 8 < 8 := by omega
  unfold winMat
  -- the matrix entry is the entry (m / 8, m % 8, tc, r, s) of the five-axis array
  refine (shapeCast_apply _ shapeCasts_S8x8x16x32x32_S64x16384 (ix2 m j)
    (ix5 (⟨m.val / 8, hpi⟩ : Fin 8) (⟨m.val % 8, hpj⟩ : Fin 8) tc r s) ?_).trans ?_
  · rw [Shape.rowMajor_val_five, Shape.rowMajor_val_two]
    show ((((m.val / 8) * 8 + m.val % 8) * 16 + tc.val) * 32 + r.val) * 32 + s.val = m.val * 16384 + j.val
    omega
  -- the transpose moves it to (tc, m / 8, r, m % 8, s)
  refine (transpose_apply _ _ transposes_S16x8x32x8x32_p1_3_0_2_4_S8x8x16x32x32 _
    (ix5 tc (⟨m.val / 8, hpi⟩ : Fin 8) r (⟨m.val % 8, hpj⟩ : Fin 8) s) ?_).trans ?_
  · exact fun b => match b with
      | ⟨0, _⟩ => rfl
      | ⟨1, _⟩ => rfl
      | ⟨2, _⟩ => rfl
      | ⟨3, _⟩ => rfl
      | ⟨4, _⟩ => rfl
  -- which is row 32·(m / 8) + r, column 32·(m % 8) + s of image tc
  refine (shapeCast_apply _ shapeCasts_S16x256x256_S16x8x32x8x32 _
    (ix3 tc (Cert.Spec.winRow m r) (Cert.Spec.winCol m s)) ?_).trans ?_
  · rw [Shape.rowMajor_val_three, Shape.rowMajor_val_five]
    show (tc.val * 256 + (m.val / 8 * 32 + r.val)) * 256 + (m.val % 8 * 32 + s.val)
      = (((tc.val * 8 + m.val / 8) * 32 + r.val) * 8 + m.val % 8) * 32 + s.val
    omega
  exact shapeCast_1abc_abc_apply x0 shapeCasts_S1x16x256x256_S16x256x256 tc _ _

/-- A matrix laid back as images, read at (0, tc, h, w): the matrix at the row of the window of (h, w) and the
    column of (tc, h % 32, w % 32). -/
theorem unwin_apply (v : FVec Ideal S64x16384 .f32) (tc : Fin 16) (h w : Fin 256) (j : Fin 16384)
    (hj : j.val = (tc.val * 32 + h.val % 32) * 32 + w.val % 32) :
    unwin v (ix4 (0 : Fin 1) tc h w) = v (ix2 (Cert.Spec.winOf h w) j) := by
  have htc := tc.isLt
  have hh := h.isLt
  have hw := w.isLt
  have hpi : h.val / 32 < 8 := by omega
  have hpj : w.val / 32 < 8 := by omega
  have hr : h.val % 32 < 32 := by omega
  have hs : w.val % 32 < 32 := by omega
  unfold unwin
  refine (shapeCast_abc_1abc_apply _ shapeCasts_S16x256x256_S1x16x256x256 (0 : Fin 1) tc h w).trans ?_
  -- row h is row h % 32 of window row h / 32, column w is column w % 32 of window column w / 32
  refine (shapeCast_apply _ shapeCasts_S16x8x32x8x32_S16x256x256 (ix3 tc h w)
    (ix5 tc (⟨h.val / 32, hpi⟩ : Fin 8) (⟨h.val % 32, hr⟩ : Fin 32) (⟨w.val / 32, hpj⟩ : Fin 8) (⟨w.val % 32, hs⟩ : Fin 32))
    ?_).trans ?_
  · rw [Shape.rowMajor_val_five, Shape.rowMajor_val_three]
    show (((tc.val * 8 + h.val / 32) * 32 + h.val % 32) * 8 + w.val / 32) * 32 + w.val % 32
      = (tc.val * 256 + h.val) * 256 + w.val
    omega
  -- the transpose reads (h / 32, w / 32, tc, h % 32, w % 32)
  refine (transpose_apply _ _ transposes_S8x8x16x32x32_p2_0_3_1_4_S16x8x32x8x32 _
    (ix5 (⟨h.val / 32, hpi⟩ : Fin 8) (⟨w.val / 32, hpj⟩ : Fin 8) tc (⟨h.val % 32, hr⟩ : Fin 32) (⟨w.val % 32, hs⟩ : Fin 32))
    ?_).trans ?_
  · exact fun b => match b with
      | ⟨0, _⟩ => rfl
      | ⟨1, _⟩ => rfl
      | ⟨2, _⟩ => rfl
      | ⟨3, _⟩ => rfl
      | ⟨4, _⟩ => rfl
  -- which is the matrix entry at row 8·(h / 32) + w / 32
  refine shapeCast_apply _ shapeCasts_S64x16384_S8x8x16x32x32 _ (ix2 (Cert.Spec.winOf h w) j) ?_
  rw [Shape.rowMajor_val_two, Shape.rowMajor_val_five]
  show (h.val / 32 * 8 + w.val / 32) * 16384 + j.val
    = ((((h.val / 32) * 8 + w.val / 32) * 16 + tc.val) * 32 + h.val % 32) * 32 + w.val % 32
  omega

/-- The product at (n, j): row n of the weights against column j of the window matrix. -/
theorem winProd_apply (x0 : Vec Ideal S1x16x256x256 .f32) (x1 : Vec Ideal S1x64x64 .f32) (n : Fin 64) (j : Fin 16384) :
    winProd x0 x1 (ix2 n j) = ∑ m : Fin 64, x1 (ix3 (0 : Fin 1) n m) * winMat x0 (ix2 m j) := by
  unfold winProd
  refine (Cert.Lib.DotEntry.matmul_zero_ix2 dot_S64x64_S64x16384_S64x16384_1_0_0_1_n_n rfl rfl
    (fun _ _ => rfl) (fun _ _ => rfl) (fun _ _ => rfl) (fun _ _ => rfl) _ _ n j).trans ?_
  refine Finset.sum_congr rfl fun m _ => ?_
  rw [truncf_apply, truncf_apply, shapeCast_1ab_ab_apply]

/-- What the second region stores at (0, tc, h, w): the windows of image tc combined with row (window of (h, w))
    of the weights, at the in-window position of (h, w). -/
theorem pay_apply (x0 : Vec Ideal S1x16x256x256 .f32) (x1 : Vec Ideal S1x64x64 .f32) (tc : Fin 16) (h w : Fin 256) :
    k1_pay1 x0 x1 (ix4 (0 : Fin 1) tc h w)
      = Cert.Spec.applyWin (fun n m => x1 (ix3 (0 : Fin 1) n m)) (fun h w => x0 (ix4 (0 : Fin 1) tc h w)) h w := by
  have htc := tc.isLt
  have hj : (tc.val * 32 + h.val % 32) * 32 + w.val % 32 < 16384 := by omega
  rw [pay_eq]
  refine (unwin_apply _ tc h w ⟨_, hj⟩ rfl).trans ?_
  refine (winProd_apply x0 x1 _ _).trans ?_
  unfold Cert.Spec.applyWin
  refine Finset.sum_congr rfl fun m _ => ?_
  rw [winMat_apply x0 tc m (Cert.Spec.inWin h) (Cert.Spec.inWin w) ⟨_, hj⟩ rfl]

end Cert.KernelValue

end
-- ==== Proof.KValue.lean ====
/-
  The kernel's result as one function of its arguments, at exact arithmetic. The second region leaves in the result
  array the window combination of the input with the attention array it found; that attention array is what the
  first region left, the softmax attention matrix of the input and the two weight matrices; and the input is, for
  both regions, the argument as launched. So the result is the specification's `out` of the three arguments.
-/
import proofs.«157101_j39797166964879_2_alg».proof.Proof.KRun
import proofs.«157101_j39797166964879_2_alg».proof.Proof.KBlocks0
import proofs.«157101_j39797166964879_2_alg».proof.Proof.KBlocks1
import proofs.«157101_j39797166964879_2_alg».proof.Proof.KDist
import proofs.«157101_j39797166964879_2_alg».proof.Proof.KApply

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem payDist : PayDist := fun x0 x1 x2 n k => pay_dist x0 x1 x2 n k
theorem payApply : PayApply := fun x0 x1 tc h w => pay_apply x0 x1 tc h w

/-- The result buffer after both regions is the specification's result of the arguments as launched. -/
theorem result_eq (c : Dev nD) :
    W2 m ρ c (Proc.devRef .tc main_v1)
      = Cert.Spec.out (m ((c : Thread nD τ).loc main_arg0)) (m ((c : Thread nD τ).loc main_arg1)) (m ((c : Thread nD τ).loc main_arg2)) := by
  rw [W2_result, out_final (V1 m ρ) payApply c, V1_input, V1_dist, dist_final (V0 m ρ) payDist c]
  rfl

/-- Every weakly fair execution of the kernel terminates with the result array at the specification's result of the
    arguments, and the arguments unchanged. -/
theorem run : θ_run defs (onTc (τ := τ) (main (F := Ideal))) ⟨m, fun _ => 0, ρ⟩ (fun r => ∀ c : Dev nD,
      r.2.mem ((c.tc : Thread nD τ).loc main_v1)
        = Cert.Spec.out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_fold m ρ)

end Cert.KernelValue

end
-- ==== Proof.RefDist.lean ====
/-
  The reference's softmax stage is the specification's attention matrix.

  The reference cuts each 256 × 256 image into its 8 × 8 grid of 32 × 32 windows by reading the image as a
  rank-6 array x[b, c, p, r, q, s] = x[b, c, 32·p + r, 32·q + s], sums every window over (r, s), divides the
  sum by 1024, and lists the 64 window means of a channel in the order n = 8·p + q.  Two products with the
  weight matrices give queries and keys, a third (scaled by 2⁻³) the scores; the softmax of every row of
  scores follows: the row's maximum taken from -∞ and once more against -∞, the exponential of the difference,
  and the quotient by the row's sum of exponentials.

  Entry by entry this is the specification's `dist`.  The one identity between the two spellings that is not a
  re-indexing of a finite sum is  s / 1024 = s · 2⁻¹⁰  for every extended real s  (`div_1024`): the
  specification multiplies the window sum by 2⁻¹⁰ where the reference divides it by 1024.  Everything else
  matches term for term: the window sum over the two axes (r, s) of the rank-6 array is the double sum over
  r and s (`v1_apply`), and each product, read at an entry, is the sum over the contracted coordinate.
-/
import proofs.«157101_j39797166964879_2_alg».proof.Proof.Spec
import proofs.«157101_j39797166964879_2_alg».proof.Proof.Gen.ReferenceIdeal.Read
import Idealize.ShloMosaic.Lib.IdealHost
import Idealize.ShloMosaic.Lib.ValueIdxRank6

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-! ## The one arithmetic law: dividing by 1024 is multiplying by 2⁻¹⁰ -/

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3A800000 denotes the real 1/1024. -/
theorem ofBits_inv_1024 : Ideal.ofBits .f32 0x3A800000#32 = ((1 / 1024 : ℝ) : EReal) := by
  simp [Ideal.ofBits, Ideal.ieee, -EReal.coe_mul]; norm_num

/-- For every extended real s, infinite ones included: s / 1024 = s · 2⁻¹⁰. -/
theorem div_1024 (s : EReal) :
    Ideal.div s (Ideal.ofBits .f32 0x44800000#32) = s * Ideal.ofBits .f32 0x3A800000#32 := by
  rw [ofBits_1024, ofBits_inv_1024]
  exact Ideal.div_coe (by norm_num) s

/-! ## The windows: the rank-6 reading of an image and the sum over a window -/

/-- The rank-6 reading: entry (b, c, p, r, q, s) is the image entry (b, c, 32·p + r, 32·q + s). -/
theorem v0_apply (X : Cert.Spec.XIdx → EReal) (b : Fin 16) (c : Fin 64) (p : Fin 8) (r : Fin 32) (q : Fin 8) (s : Fin 32) :
    val_main_v0 (F := Ideal) X (ix6 b c p r q s)
      = X (ix4 b c (⟨p.val * 32 + r.val, by omega⟩ : Fin 256) (⟨q.val * 32 + s.val, by omega⟩ : Fin 256)) := by
  unfold val_main_v0
  refine shapeCast_apply X shapeCasts_S16x64x256x256_S16x64x8x32x8x32 _ _ ?_
  rw [Shape.rowMajor_val_four, Shape.rowMajor_val_six]
  show ((b.val * 64 + c.val) * 256 + (p.val * 32 + r.val)) * 256 + (q.val * 32 + s.val)
    = ((((b.val * 64 + c.val) * 8 + p.val) * 32 + r.val) * 8 + q.val) * 32 + s.val
  omega

/-- A rank-6 index whose four kept coordinates (axes 0, 1, 2, 4) are (b, c, p, q) is (b, c, p, r, q, s) with
    r, s its coordinates on the two summed axes. -/
theorem eq_ix6_of_drop (i : S16x64x8x32x8x32.Idx) (b : Fin 16) (c : Fin 64) (p q : Fin 8)
    (hi : reducesTo_S16x64x8x32x8x32_S16x64x8x8_d3_5.drop i = ix4 b c p q) :
    ix6 b c p (i 3 : Fin 32) q (i 5 : Fin 32) = i := by
  have h0 : (i 0).val = b.val :=
    (reducesTo_S16x64x8x32x8x32_S16x64x8x8_d3_5.drop_apply_val_of_eq i 0 0).symm.trans
      (congrArg (fun j : S16x64x8x8.Idx => (j 0).val) hi)
  have h1 : (i 1).val = c.val :=
    (reducesTo_S16x64x8x32x8x32_S16x64x8x8_d3_5.drop_apply_val_of_eq i 1 1).symm.trans
      (congrArg (fun j : S16x64x8x8.Idx => (j 1).val) hi)
  have h2 : (i 2).val = p.val :=
    (reducesTo_S16x64x8x32x8x32_S16x64x8x8_d3_5.drop_apply_val_of_eq i 2 2).symm.trans
      (congrArg (fun j : S16x64x8x8.Idx => (j 2).val) hi)
  have h4 : (i 4).val = q.val :=
    (reducesTo_S16x64x8x32x8x32_S16x64x8x8_d3_5.drop_apply_val_of_eq i 3 4).symm.trans
      (congrArg (fun j : S16x64x8x8.Idx => (j 3).val) hi)
  funext a
  apply Fin.ext
  match a with
  | ⟨0, _⟩ => exact h0.symm
  | ⟨1, _⟩ => exact h1.symm
  | ⟨2, _⟩ => exact h2.symm
  | ⟨3, _⟩ => rfl
  | ⟨4, _⟩ => exact h4.symm
  | ⟨5, _⟩ => rfl

/-- Dropping the two summed coordinates of (b, c, p, r, q, s) leaves (b, c, p, q). -/
theorem drop_ix6 (b : Fin 16) (c : Fin 64) (p : Fin 8) (r : Fin 32) (q : Fin 8) (s : Fin 32) :
    reducesTo_S16x64x8x32x8x32_S16x64x8x8_d3_5.drop (ix6 b c p r q s) = ix4 b c p q := by
  funext a
  apply Fin.ext
  match a with
  | ⟨0, _⟩ => exact reducesTo_S16x64x8x32x8x32_S16x64x8x8_d3_5.drop_apply_val_of_eq (ix6 b c p r q s) 0 0
  | ⟨1, _⟩ => exact reducesTo_S16x64x8x32x8x32_S16x64x8x8_d3_5.drop_apply_val_of_eq (ix6 b c p r q s) 1 1
  | ⟨2, _⟩ => exact reducesTo_S16x64x8x32x8x32_S16x64x8x8_d3_5.drop_apply_val_of_eq (ix6 b c p r q s) 2 2
  | ⟨3, _⟩ => exact reducesTo_S16x64x8x32x8x32_S16x64x8x8_d3_5.drop_apply_val_of_eq (ix6 b c p r q s) 3 4

/-- The sum over the rank-6 indices that drop to (b, c, p, q) is the double sum over the two dropped coordinates. -/
theorem sum_window (y : S16x64x8x32x8x32.Idx → EReal) (b : Fin 16) (c : Fin 64) (p q : Fin 8) :
    ∑ i ∈ Finset.univ.filter (fun i => reducesTo_S16x64x8x32x8x32_S16x64x8x8_d3_5.drop i = ix4 b c p q), y i
      = ∑ r : Fin 32, ∑ s : Fin 32, y (ix6 b c p r q s) := by
  rw [← Fintype.sum_prod_type']
  refine Finset.sum_nbij' (fun i => ((i 3 : Fin 32), (i 5 : Fin 32))) (fun rs => ix6 b c p rs.1 q rs.2) ?_ ?_ ?_ ?_ ?_
  · intro i _; exact Finset.mem_univ _
  · intro rs _; exact Finset.mem_filter.2 ⟨Finset.mem_univ _, drop_ix6 b c p rs.1 q rs.2⟩
  · intro i hi; exact eq_ix6_of_drop i b c p q (Finset.mem_filter.1 hi).2
  · intro rs _; rfl
  · intro i hi; exact congrArg y (eq_ix6_of_drop i b c p q (Finset.mem_filter.1 hi).2).symm

/-- The window sum: entry (b, c, p, q) is the sum of the image over window (p, q), rows then columns. -/
theorem v1_apply (X : Cert.Spec.XIdx → EReal) (b : Fin 16) (c : Fin 64) (p q : Fin 8) :
    val_main_v1 (F := Ideal) X (ix4 b c p q)
      = ∑ r : Fin 32, ∑ s : Fin 32,
          X (ix4 b c (⟨p.val * 32 + r.val, by omega⟩ : Fin 256) (⟨q.val * 32 + s.val, by omega⟩ : Fin 256)) := by
  unfold val_main_v1
  generalize hy : val_main_v0 (F := Ideal) X = y
  refine (hostReduceAdd_apply y _ reducesTo_S16x64x8x32x8x32_S16x64x8x8_d3_5 h_S_ (ix4 b c p q)).trans ?_
  have h0 : (val_main_cst (F := Ideal)) (Shape.Idx.first h_S_) = 0 := Ideal.ofBits_zero_f32
  rw [h0]
  show 0 + ∑ i ∈ Finset.univ.filter (fun i => reducesTo_S16x64x8x32x8x32_S16x64x8x8_d3_5.drop i = ix4 b c p q), y i = _
  rw [zero_add, sum_window y b c p q]
  subst hy
  exact Finset.sum_congr rfl fun r _ => Finset.sum_congr rfl fun s _ => v0_apply X b c p r q s

/-! ## The window means, the projections, the scores -/

/-- The mean of window (p, q) of image (b, c): the window's sum times 2⁻¹⁰. -/
theorem v3_apply (X : Cert.Spec.XIdx → EReal) (b : Fin 16) (c : Fin 64) (p q : Fin 8) :
    val_main_v3 (F := Ideal) X (ix4 b c p q)
      = (∑ r : Fin 32, ∑ s : Fin 32,
          X (ix4 b c (⟨p.val * 32 + r.val, by omega⟩ : Fin 256) (⟨q.val * 32 + s.val, by omega⟩ : Fin 256)))
        * Ideal.ofBits .f32 0x3A800000#32 := by
  refine (val_main_v3_apply (F := Ideal) X (ix4 b c p q)).trans ?_
  rw [v1_apply X b c p q, val_main_v2_apply (F := Ideal), val_main_cst_0_apply (F := Ideal)]
  exact div_1024 _

/-- The 8 × 8 grid of windows listed as 64: entry (b, c, n) is window (n / 8, n % 8). -/
theorem v4_apply (X : Cert.Spec.XIdx → EReal) (b : Fin 16) (c n : Fin 64) :
    val_main_v4 (F := Ideal) X (ix3 b c n)
      = val_main_v3 (F := Ideal) X (ix4 b c (⟨n.val / 8, by omega⟩ : Fin 8) (⟨n.val % 8, by omega⟩ : Fin 8)) := by
  unfold val_main_v4
  generalize val_main_v3 (F := Ideal) X = y
  refine shapeCast_apply y shapeCasts_S16x64x8x8_S16x64x64 _ _ ?_
  rw [Shape.rowMajor_val_four, Shape.rowMajor_val_three]
  show ((b.val * 64 + c.val) * 8 + n.val / 8) * 8 + n.val % 8 = (b.val * 64 + c.val) * 64 + n.val
  omega

/-- Windows by channels: entry (b, n, c) is the specification's pooled value of channel c at window n. -/
theorem v5_apply (X : Cert.Spec.XIdx → EReal) (b : Fin 16) (n c : Fin 64) :
    val_main_v5 (F := Ideal) X (ix3 b n c) = Cert.Spec.pooled (Cert.Spec.img X b) c n := by
  refine (val_main_v5_apply (F := Ideal) X (ix3 b n c)).trans ?_
  have e5 : idx_main_v5 (ix3 b n c) = ix3 b c n := by
    funext a; match a with | ⟨0, _⟩ => rfl | ⟨1, _⟩ => rfl | ⟨2, _⟩ => rfl
  rw [e5]
  refine (v4_apply X b c n).trans ?_
  refine (v3_apply X b c _ _).trans ?_
  rfl

/-- Queries (with Wq) and keys (with Wk): entry (b, n, k) is the specification's projection. -/
theorem v6_apply (X : Cert.Spec.XIdx → EReal) (W : Cert.Spec.WIdx → EReal) (b : Fin 16) (n k : Fin 64) :
    val_main_v6 (F := Ideal) X W (ix3 b n k) = Cert.Spec.proj (Cert.Spec.img X b) W n k := by
  refine (val_main_v6_apply X W (ix3 b n k)).trans ?_
  unfold Cert.Spec.proj
  refine Finset.sum_congr rfl fun c _ => ?_
  have el : lidx_main_v6 (ix3 b n k) c = ix3 b n c := by
    funext a; match a with | ⟨0, _⟩ => rfl | ⟨1, _⟩ => rfl | ⟨2, _⟩ => rfl
  have er : ridx_main_v6 (ix3 b n k) c = ix2 k c := by
    funext a; match a with | ⟨0, _⟩ => rfl | ⟨1, _⟩ => rfl
  rw [el, er, v5_apply]

theorem v7_apply (X : Cert.Spec.XIdx → EReal) (W : Cert.Spec.WIdx → EReal) (b : Fin 16) (n k : Fin 64) :
    val_main_v7 (F := Ideal) X W (ix3 b n k) = Cert.Spec.proj (Cert.Spec.img X b) W n k := by
  refine (val_main_v7_apply X W (ix3 b n k)).trans ?_
  unfold Cert.Spec.proj
  refine Finset.sum_congr rfl fun c _ => ?_
  have el : lidx_main_v7 (ix3 b n k) c = ix3 b n c := by
    funext a; match a with | ⟨0, _⟩ => rfl | ⟨1, _⟩ => rfl | ⟨2, _⟩ => rfl
  have er : ridx_main_v7 (ix3 b n k) c = ix2 k c := by
    funext a; match a with | ⟨0, _⟩ => rfl | ⟨1, _⟩ => rfl
  rw [el, er, v5_apply]

/-- The scaled inner product of query n with key m: entry (b, n, m) is the specification's score. -/
theorem v14_apply (X : Cert.Spec.XIdx → EReal) (Wq Wk : Cert.Spec.WIdx → EReal) (b : Fin 16) (n m : Fin 64) :
    val_main_v14 (F := Ideal) X Wq Wk (ix3 b n m) = Cert.Spec.score (Cert.Spec.img X b) Wq Wk n m := by
  refine (val_main_v14_apply (F := Ideal) X Wq Wk (ix3 b n m)).trans ?_
  rw [val_main_v12_apply, val_main_v13_apply (F := Ideal), val_main_cst_1_apply (F := Ideal)]
  unfold Cert.Spec.score
  refine congrArg (· * Ideal.ofBits .f32 0x3E000000#32) (Finset.sum_congr rfl fun k _ => ?_)
  have el : lidx_main_v12 (ix3 b n m) k = ix3 b n k := by
    funext a; match a with | ⟨0, _⟩ => rfl | ⟨1, _⟩ => rfl | ⟨2, _⟩ => rfl
  have er : ridx_main_v12 (ix3 b n m) k = ix3 b m k := by
    funext a; match a with | ⟨0, _⟩ => rfl | ⟨1, _⟩ => rfl | ⟨2, _⟩ => rfl
  rw [el, er, v6_apply, v7_apply]

/-! ## The softmax of a row of scores -/

/-- A maximum over the last axis of a [16, 64, 64] array, from an initial value: at (b, n), the fold of max over the row. -/
theorem rowFold (y : S16x64x64.Idx → EReal) (init : S_.Idx → EReal) (b : Fin 16) (n : Fin 64) :
    Host.reduce (FloatOps.maximumf (F := Ideal) (φ := .f32)) y init reducesTo_S16x64x64_S16x64_d2 h_S_ (ix2 b n)
      = (Finset.univ : Finset (Fin 64)).fold max (init (Shape.Idx.first h_S_)) (fun m => y (ix3 b n m)) := by
  have hR : S16x64x64.Reduces [2] S16x64 := by decide
  refine (Host.reduce_eq_fold_single (s := S16x64x64) (t := S16x64) (a := (2 : Fin 3))
    (FloatOps.maximumf (F := Ideal) (φ := .f32)) y init reducesTo_S16x64x64_S16x64_d2 hR h_S_ (ix2 b n)).trans ?_
  have hrow : (y ∘ hR.lift (ix2 b n)) = fun m : Fin 64 => y (ix3 b n m) := by
    funext m
    exact congrArg y (funext fun a => Fin.ext (by match a with | ⟨0, _⟩ => rfl | ⟨1, _⟩ => rfl | ⟨2, _⟩ => rfl))
  rw [hrow]
  rfl

/-- The row's maximum, taken from -∞ and once more against -∞. -/
theorem v17_apply (X : Cert.Spec.XIdx → EReal) (Wq Wk : Cert.Spec.WIdx → EReal) (b : Fin 16) (n : Fin 64) :
    val_main_v17 (F := Ideal) X Wq Wk (ix2 b n) = Cert.Spec.rowMax (Cert.Spec.img X b) Wq Wk n := by
  refine (val_main_v17_apply (F := Ideal) X Wq Wk (ix2 b n)).trans ?_
  rw [val_main_v16_apply (F := Ideal), val_main_cst_3_apply (F := Ideal)]
  unfold Cert.Spec.rowMax
  refine congrArg (max (Ideal.ofBits .f32 0xFF800000#32)) ?_
  unfold val_main_v15
  refine (rowFold _ _ b n).trans ?_
  have hrow : (fun m : Fin 64 => val_main_v14 (F := Ideal) X Wq Wk (ix3 b n m))
      = fun m => Cert.Spec.score (Cert.Spec.img X b) Wq Wk n m :=
    funext fun m => v14_apply X Wq Wk b n m
  rw [hrow]
  rfl

/-- The exponential of a score less its row's maximum. -/
theorem v21_apply (X : Cert.Spec.XIdx → EReal) (Wq Wk : Cert.Spec.WIdx → EReal) (b : Fin 16) (n m : Fin 64) :
    val_main_v21 (F := Ideal) X Wq Wk (ix3 b n m) = Cert.Spec.expo (Cert.Spec.img X b) Wq Wk n m := by
  refine (val_main_v21_apply (F := Ideal) X Wq Wk (ix3 b n m)).trans ?_
  rw [val_main_v20_apply (F := Ideal), v14_apply, val_main_v19_apply (F := Ideal), val_main_v18_apply (F := Ideal)]
  have e : idx_main_v18 (idx_main_v19 (ix3 b n m)) = ix2 b n := by
    funext a; match a with | ⟨0, _⟩ => rfl | ⟨1, _⟩ => rfl
  rw [e, v17_apply]
  rfl

/-- The reference's softmax stage is the specification's attention matrix. -/
theorem dist_eq (X : Cert.Spec.XIdx → EReal) (Wq Wk : Cert.Spec.WIdx → EReal) :
    val_main_v25 (F := Ideal) X Wq Wk = Cert.Spec.distArr X Wq Wk := by
  funext i
  obtain ⟨b, n, m, rfl⟩ : ∃ (b : Fin 16) (n m : Fin 64), i = ix3 b n m := ⟨i 0, i 1, i 2, eq_ix3 i⟩
  refine (val_main_v25_apply (F := Ideal) X Wq Wk (ix3 b n m)).trans ?_
  rw [v21_apply, val_main_v24_apply (F := Ideal), val_main_v23_apply (F := Ideal)]
  have e : idx_main_v23 (idx_main_v24 (ix3 b n m)) = ix2 b n := by
    funext a; match a with | ⟨0, _⟩ => rfl | ⟨1, _⟩ => rfl
  rw [e, val_main_v22_apply]
  have h0 : (val_main_cst_4 (F := Ideal)) (Shape.Idx.first h_S_) = 0 := Ideal.ofBits_zero_f32
  rw [h0, zero_add]
  have hs : ∑ k : Fin 64, val_main_v21 (F := Ideal) X Wq Wk (idx_main_v22 (ix2 b n) k)
      = ∑ m' : Fin 64, Cert.Spec.expo (Cert.Spec.img X b) Wq Wk n m' :=
    Finset.sum_congr rfl fun k _ => by
      have ek : idx_main_v22 (ix2 b n) k = ix3 b n k := by
        funext a; match a with | ⟨0, _⟩ => rfl | ⟨1, _⟩ => rfl | ⟨2, _⟩ => rfl
      rw [ek, v21_apply]
  rw [hs]
  rfl

end Cert.RefValue

end
-- ==== Proof.RefApply.lean ====
/-
  The reference program's last stages apply the attention matrix to the windows of x.

  Each 256 × 256 image is an 8 × 8 grid of 32 × 32 windows; row h lies in window row h / 32 at in-window row h % 32,
  and likewise for columns.  The program lays x out window by window,
      v11[b, m, (32·r + s)·64 + c] = x[b, c, 32·(m/8) + r, 32·(m%8) + s]            (m = 8·pi + pj the window),
  multiplies by the matrix D one batch entry at a time,
      v26[b, n, d] = Σ_m D[b, n, m] · v11[b, m, d],
  and undoes the layout,
      out[b, c, h, w] = v26[b, 8·(h/32) + w/32, (32·(h%32) + w%32)·64 + c].
  Together: out[b, c, h, w] = Σ_m D[b, window of (h, w), m] · x[b, c, 32·(m/8) + h%32, 32·(m%8) + w%32], which is the
  specification's apply.  Each layout step moves one entry to one entry: a transpose permutes the coordinates, a
  reshape keeps the row-major position, so every step is read at an index by naming the operand's index and checking
  one linear identity between the two positions.
-/
import proofs.«157101_j39797166964879_2_alg».proof.Proof.Spec
import proofs.«157101_j39797166964879_2_alg».proof.Proof.Gen.ReferenceIdeal.Read
import Idealize.ShloMosaic.Lib.ValueIdxRank6

noncomputable section

open Idealize.ShloMosaic Idealize.ShloMosaic.TcCoe Idealize.SL.Sem Idealize.ShloMosaic.ValueIdx

namespace Cert.RefValue

open Cert.ReferenceIdeal Cert.ReferenceIdeal.Gen Cert.ReferenceIdeal.Read Cert.Spec

/-- The position of (in-window row r, in-window column s, channel c) in a flattened window: (32·r + s)·64 + c. -/
def flat (r s : Fin 32) (c : Fin 64) : Fin 65536 := ⟨(r.val * 32 + s.val) * 64 + c.val, by omega⟩

theorem flat_val (r s : Fin 32) (c : Fin 64) : (flat r s c).val = (r.val * 32 + s.val) * 64 + c.val := rfl

/-! ### The four reshapes, each read at an index -/

section Casts
variable {α : Type}

/-- [b, h, w, c] → [b, pi, r, pj, s, c]: the entry at (pi, r, pj, s) is the one at h = 32·pi + r, w = 32·pj + s. -/
theorem cast_split (y : S16x256x256x64.Idx → α) (b : Fin 16) (pi : Fin 8) (r : Fin 32) (pj : Fin 8) (s : Fin 32) (c : Fin 64) :
    shapeCast S16x8x32x8x32x64 y shapeCasts_S16x256x256x64_S16x8x32x8x32x64 (ix6 b pi r pj s c)
      = y (ix4 b (⟨pi.val * 32 + r.val, by omega⟩ : Fin 256) (⟨pj.val * 32 + s.val, by omega⟩ : Fin 256) c) := by
  refine shapeCast_apply y shapeCasts_S16x256x256x64_S16x8x32x8x32x64 _ _ ?_
  rw [Shape.rowMajor_val_four, Shape.rowMajor_val_six]
  show ((b.val * 256 + (pi.val * 32 + r.val)) * 256 + (pj.val * 32 + s.val)) * 64 + c.val
    = ((((b.val * 8 + pi.val) * 32 + r.val) * 8 + pj.val) * 32 + s.val) * 64 + c.val
  omega

/-- [b, pi, pj, r, s, c] → [b, m, d]: the entry at (m, (32·r + s)·64 + c) is the one at pi = m / 8, pj = m % 8. -/
theorem cast_flatten (y : S16x8x8x32x32x64.Idx → α) (b : Fin 16) (m : Fin 64) (r s : Fin 32) (c : Fin 64) :
    shapeCast S16x64x65536 y shapeCasts_S16x8x8x32x32x64_S16x64x65536 (ix3 b m (flat r s c))
      = y (ix6 b (⟨m.val / 8, by omega⟩ : Fin 8) (⟨m.val % 8, by omega⟩ : Fin 8) r s c) := by
  refine shapeCast_apply y shapeCasts_S16x8x8x32x32x64_S16x64x65536 _ _ ?_
  rw [Shape.rowMajor_val_six, Shape.rowMajor_val_three]
  show ((((b.val * 8 + m.val / 8) * 8 + m.val % 8) * 32 + r.val) * 32 + s.val) * 64 + c.val
    = (b.val * 64 + m.val) * 65536 + ((r.val * 32 + s.val) * 64 + c.val)
  omega

/-- [b, m, d] → [b, pi, pj, r, s, c]: the entry at (pi, pj, r, s, c) is the one at m = 8·pi + pj, d = (32·r + s)·64 + c. -/
theorem cast_unflatten (y : S16x64x65536.Idx → α) (b : Fin 16) (pi pj : Fin 8) (r s : Fin 32) (c : Fin 64) :
    shapeCast S16x8x8x32x32x64 y shapeCasts_S16x64x65536_S16x8x8x32x32x64 (ix6 b pi pj r s c)
      = y (ix3 b (⟨pi.val * 8 + pj.val, by omega⟩ : Fin 64) (flat r s c)) := by
  refine shapeCast_apply y shapeCasts_S16x64x65536_S16x8x8x32x32x64 _ _ ?_
  rw [Shape.rowMajor_val_three, Shape.rowMajor_val_six]
  show (b.val * 64 + (pi.val * 8 + pj.val)) * 65536 + ((r.val * 32 + s.val) * 64 + c.val)
    = ((((b.val * 8 + pi.val) * 8 + pj.val) * 32 + r.val) * 32 + s.val) * 64 + c.val
  omega

/-- [b, pi, r, pj, s, c] → [b, h, w, c]: the entry at (h, w) is the one at pi = h / 32, r = h % 32, pj = w / 32, s = w % 32. -/
theorem cast_merge (y : S16x8x32x8x32x64.Idx → α) (b : Fin 16) (h w : Fin 256) (c : Fin 64) :
    shapeCast S16x256x256x64 y shapeCasts_S16x8x32x8x32x64_S16x256x256x64 (ix4 b h w c)
      = y (ix6 b (⟨h.val / 32, by omega⟩ : Fin 8) (inWin h) (⟨w.val / 32, by omega⟩ : Fin 8) (inWin w) c) := by
  refine shapeCast_apply y shapeCasts_S16x8x32x8x32x64_S16x256x256x64 _ _ ?_
  rw [Shape.rowMajor_val_six, Shape.rowMajor_val_four]
  show ((((b.val * 8 + h.val / 32) * 32 + h.val % 32) * 8 + w.val / 32) * 32 + w.val % 32) * 64 + c.val
    = ((b.val * 256 + h.val) * 256 + w.val) * 64 + c.val
  omega

end Casts

/-! ### The transposes' operand indices, by coordinates -/

theorem idx8_ix (b : Fin 16) (h w : Fin 256) (c : Fin 64) : idx_main_v8 (ix4 b h w c) = ix4 b c h w := by
  funext a; match a with | ⟨0, _⟩ => rfl | ⟨1, _⟩ => rfl | ⟨2, _⟩ => rfl | ⟨3, _⟩ => rfl

theorem idx10_ix (b : Fin 16) (pi pj : Fin 8) (r s : Fin 32) (c : Fin 64) :
    idx_main_v10 (ix6 b pi pj r s c) = ix6 b pi r pj s c := by
  funext a; match a with | ⟨0, _⟩ => rfl | ⟨1, _⟩ => rfl | ⟨2, _⟩ => rfl | ⟨3, _⟩ => rfl | ⟨4, _⟩ => rfl | ⟨5, _⟩ => rfl

theorem idx28_ix (b : Fin 16) (pi : Fin 8) (r : Fin 32) (pj : Fin 8) (s : Fin 32) (c : Fin 64) :
    idx_main_v28 (ix6 b pi r pj s c) = ix6 b pi pj r s c := by
  funext a; match a with | ⟨0, _⟩ => rfl | ⟨1, _⟩ => rfl | ⟨2, _⟩ => rfl | ⟨3, _⟩ => rfl | ⟨4, _⟩ => rfl | ⟨5, _⟩ => rfl

theorem idx30_ix (b : Fin 16) (c : Fin 64) (h w : Fin 256) : idx_main_v30 (ix4 b c h w) = ix4 b h w c := by
  funext a; match a with | ⟨0, _⟩ => rfl | ⟨1, _⟩ => rfl | ⟨2, _⟩ => rfl | ⟨3, _⟩ => rfl

theorem lidx26_ix (b : Fin 16) (n : Fin 64) (d : Fin 65536) (k : Fin 64) : lidx_main_v26 (ix3 b n d) k = ix3 b n k := by
  funext a; match a with | ⟨0, _⟩ => rfl | ⟨1, _⟩ => rfl | ⟨2, _⟩ => rfl

theorem ridx26_ix (b : Fin 16) (n : Fin 64) (d : Fin 65536) (k : Fin 64) : ridx_main_v26 (ix3 b n d) k = ix3 b k d := by
  funext a; match a with | ⟨0, _⟩ => rfl | ⟨1, _⟩ => rfl | ⟨2, _⟩ => rfl

/-! ### The stages -/

variable (X : XIdx → EReal) (Wq Wk : WIdx → EReal)

/-- The windows of x laid out: window m's entry (r, s) of channel c. -/
theorem v11_at (b : Fin 16) (m : Fin 64) (r s : Fin 32) (c : Fin 64) :
    val_main_v11 (F := Ideal) X (ix3 b m (flat r s c)) = X (ix4 b c (winRow m r) (winCol m s)) := by
  unfold val_main_v11
  refine (cast_flatten _ b m r s c).trans ?_
  rw [val_main_v10_apply, idx10_ix]
  unfold val_main_v9
  refine (cast_split _ b _ r _ s c).trans ?_
  rw [val_main_v8_apply, idx8_ix]
  rfl

/-- The result's entry is the product's entry at the window of (h, w) and the in-window position. -/
theorem v30_at (b : Fin 16) (c : Fin 64) (h w : Fin 256) :
    val_main_v30 (F := Ideal) X Wq Wk (ix4 b c h w)
      = val_main_v26 (F := Ideal) X Wq Wk (ix3 b (winOf h w) (flat (inWin h) (inWin w) c)) := by
  rw [val_main_v30_apply, idx30_ix]
  unfold val_main_v29
  refine (cast_merge _ b h w c).trans ?_
  rw [val_main_v28_apply, idx28_ix]
  unfold val_main_v27
  refine (cast_unflatten _ b _ _ (inWin h) (inWin w) c).trans ?_
  rfl

/-- The product's entry as a sum over windows. -/
theorem v26_at (b : Fin 16) (n : Fin 64) (d : Fin 65536) :
    val_main_v26 (F := Ideal) X Wq Wk (ix3 b n d)
      = ∑ k : Fin 64, val_main_v25 (F := Ideal) X Wq Wk (ix3 b n k) * val_main_v11 (F := Ideal) X (ix3 b k d) := by
  refine (val_main_v26_apply X Wq Wk (ix3 b n d)).trans ?_
  refine Finset.sum_congr rfl fun k _ => ?_
  rw [lidx26_ix, ridx26_ix]

theorem apply_at (b : Fin 16) (c : Fin 64) (h w : Fin 256) :
    val_main_v30 (F := Ideal) X Wq Wk (ix4 b c h w) = Cert.Spec.apply X (val_main_v25 (F := Ideal) X Wq Wk) (ix4 b c h w) := by
  rw [v30_at, v26_at]
  show _ = ∑ m : Fin 64, val_main_v25 (F := Ideal) X Wq Wk (ix3 b (winOf h w) m)
      * X (ix4 b c (winRow m (inWin h)) (winCol m (inWin w)))
  refine Finset.sum_congr rfl fun m _ => ?_
  rw [v11_at]

/-- The reference's result is the specification's apply of its attention matrix. -/
theorem apply_eq (X : Cert.Spec.XIdx → EReal) (Wq Wk : Cert.Spec.WIdx → EReal) :
    val_main_v30 (F := Ideal) X Wq Wk = Cert.Spec.apply X (val_main_v25 (F := Ideal) X Wq Wk) := by
  funext i
  rw [eq_ix4 i]
  exact apply_at X Wq Wk (i 0) (i 1) (i 2) (i 3)

end Cert.RefValue

end
-- ==== Proof.RefValue.lean ====
/-
  The reference's result is the specification's: its last stages combine the windows of x with its attention matrix,
  and its attention matrix is the specification's softmax of the pooled queries and keys.
-/
import proofs.«157101_j39797166964879_2_alg».proof.Proof.RefDist
import proofs.«157101_j39797166964879_2_alg».proof.Proof.RefApply

noncomputable section

namespace Cert.RefValue

open Idealize.ShloMosaic Idealize.SL.Sem
open Cert.ReferenceIdeal Cert.ReferenceIdeal.Read

/-- The reference's result array, as a function of its three arguments, is the specification's result. -/
theorem ref_eq (X : Cert.Spec.XIdx → EReal) (Wq Wk : Cert.Spec.WIdx → EReal) :
    val_main_v30 (F := Ideal) X Wq Wk = Cert.Spec.out X Wq Wk := by
  rw [apply_eq, dist_eq]
  rfl

end Cert.RefValue

end
-- ==== Proof.lean ====
/-
  The kernel and its reference compute one function of (x, Wq, Wk) over the extended reals.

  x : [16, 64, 256, 256] is sixteen batch entries of 64 images, each image an 8 × 8 grid of 32 × 32 windows. Both
  programs take the mean of every window (64 numbers per image), project the 64 windows' channel vectors by Wq and by
  Wk, form the 64 × 64 matrix of scaled inner products, turn each row into a distribution (subtract the row's maximum,
  exponentiate, divide by the row's sum), and replace every window of every image by the combination of that image's
  windows weighted by the window's row of the distribution (Proof/Spec.lean states this entry by entry).

  The kernel does it in two regions: the first, one grid point per batch entry, writes the 64 × 64 distribution
  (Proof/KDist.lean reads the stored block entry by entry; Proof/KBlocks0.lean assembles the sixteen blocks into the
  array); the second, one grid point per batch entry and group of sixteen images, combines the windows by one matrix
  product (Proof/KApply.lean, Proof/KBlocks1.lean). Proof/KRun.lean runs the two regions in a row and names the
  result array; Proof/KValue.lean composes these. The reference is a straight line of host operations
  (Proof/RefDist.lean and Proof/RefApply.lean read it stage by stage; Proof/RefValue.lean composes them).

  The two texts differ in layout (which reshapes and transposes bring the windows side by side), in the grouping of the
  window sum (32 columns then 32 rows, against all 1024 entries at once) and in one constant: the kernel multiplies the
  window sum by 2⁻¹⁰ where the reference divides it by 1024, the same extended real for every sum. No law used needs
  the inputs to be finite: sums are only regrouped, and the precondition is never opened.

  The idealization rewrote no operation, so `preserves` is trivial. The three frames: the two kernel programs' are
  the generated ones; the reference's is its run with the result dropped.
-/
import proofs.«157101_j39797166964879_2_alg».proof.Defs
import proofs.«157101_j39797166964879_2_alg».proof.Proof.Gen.Kernel
import proofs.«157101_j39797166964879_2_alg».proof.Proof.Gen.Kernel.Skeleton
import proofs.«157101_j39797166964879_2_alg».proof.Proof.Gen.Kernel.Launch
import proofs.«157101_j39797166964879_2_alg».proof.Proof.Gen.Kernel.Points
import proofs.«157101_j39797166964879_2_alg».proof.Proof.Gen.Kernel.Frame
import proofs.«157101_j39797166964879_2_alg».proof.Proof.Gen.KernelIdeal
import proofs.«157101_j39797166964879_2_alg».proof.Proof.Gen.KernelIdeal.Skeleton
import proofs.«157101_j39797166964879_2_alg».proof.Proof.Gen.KernelIdeal.Launch
import proofs.«157101_j39797166964879_2_alg».proof.Proof.Gen.KernelIdeal.Points
import proofs.«157101_j39797166964879_2_alg».proof.Proof.Gen.KernelIdeal.Frame
import proofs.«157101_j39797166964879_2_alg».proof.Proof.Gen.ReferenceIdeal
import proofs.«157101_j39797166964879_2_alg».proof.Proof.Gen.Pre_finite_inputs
import proofs.«157101_j39797166964879_2_alg».proof.Proof.Gen.ReferenceIdeal.Run
import proofs.«157101_j39797166964879_2_alg».proof.Proof.Gen.ReferenceIdeal.Read
import proofs.«157101_j39797166964879_2_alg».proof.Proof.KValue
import proofs.«157101_j39797166964879_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, the kernel ends with its result array at the specification's
    result of the arguments (Proof/KValue.lean) and the reference with its result at the same function of the same
    arguments (its generated run, read by Proof/RefValue.lean). -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
